-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S64x256 : Shape := ⟨2, ![64, 256]⟩
abbrev S64 : Shape := ⟨1, ![64]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1x256x512x512 .f32) (main_arg1 : FVec F S64x256 .f32) (main_arg2 : FVec F S64x256 .f32) (main_arg3 : FVec F S64 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1x256x512x512 : Shape := ⟨4, ![1, 256, 512, 512]⟩
abbrev S64x256 : Shape := ⟨2, ![64, 256]⟩
abbrev S64 : Shape := ⟨1, ![64]⟩
abbrev S256x262144 : Shape := ⟨2, ![256, 262144]⟩
abbrev S64x1 : Shape := ⟨2, ![64, 1]⟩
abbrev S2x64x256 : Shape := ⟨3, ![2, 64, 256]⟩
abbrev S2x64x1 : Shape := ⟨3, ![2, 64, 1]⟩
abbrev S256x8192 : Shape := ⟨2, ![256, 8192]⟩
abbrev S1x64x256 : Shape := ⟨3, ![1, 64, 256]⟩
abbrev S1x64x1 : Shape := ⟨3, ![1, 64, 1]⟩
abbrev S64x8192 : Shape := ⟨2, ![64, 8192]⟩
abbrev S8192 : Shape := ⟨1, ![8192]⟩
abbrev S1x8192 : Shape := ⟨2, ![1, 8192]⟩
abbrev S_ : Shape := ⟨0, ![]⟩
abbrev S256 : Shape := ⟨1, ![256]⟩
abbrev S1x256 : Shape := ⟨2, ![1, 256]⟩

abbrev nBuf : Space → Nat
  | .hbm => 35
  | .vmem => 10
  | .smem => 0
  | _ => 0

abbrev bufTy : (tb : Table) → Fin (tcTables nBuf tb) → BufTy
  | .hbm, ⟨0, _⟩ => ⟨S1x256x512x512, .f32⟩
  | .hbm, ⟨1, _⟩ => ⟨S64x256, .f32⟩
  | .hbm, ⟨2, _⟩ => ⟨S64x256, .f32⟩
  | .hbm, ⟨3, _⟩ => ⟨S64, .f32⟩
  | .hbm, ⟨4, _⟩ => ⟨S256x262144, .f32⟩
  | .hbm, ⟨5, _⟩ => ⟨S64x1, .f32⟩
  | .hbm, ⟨6, _⟩ => ⟨S2x64x256, .f32⟩
  | .hbm, ⟨7, _⟩ => ⟨S2x64x1, .f32⟩
  | .hbm, ⟨8, _⟩ => ⟨S_, .f32⟩
  | .hbm, ⟨9, _⟩ => ⟨S64x256, .f32⟩
  | .hbm, ⟨10, _⟩ => ⟨S_, .f32⟩
  | .hbm, ⟨11, _⟩ => ⟨S64x1, .f32⟩
  | .hbm, ⟨12, _⟩ => ⟨S64x256, .f32⟩
  | .hbm, ⟨13, _⟩ => ⟨S64x256, .f32⟩
  | .hbm, ⟨14, _⟩ => ⟨S64x256, .f32⟩
  | .hbm, ⟨15, _⟩ => ⟨S64x256, .f32⟩
  | .hbm, ⟨16, _⟩ => ⟨S_, .f32⟩
  | .hbm, ⟨17, _⟩ => ⟨S256, .f32⟩
  | .hbm, ⟨18, _⟩ => ⟨S1x256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S64x256, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S64x256, .f32⟩
  | .hbm, ⟨34, _⟩ => ⟨S64x256, .f32⟩
  | .local _ .vmem, ⟨0, _⟩ => ⟨S256x8192, .f32⟩
  | .local _ .vmem, ⟨1, _⟩ => ⟨S256x8192, .f32⟩
  | .local _ .vmem, ⟨2, _⟩ => ⟨S64x256, .f32⟩
  | .local _ .vmem, ⟨3, _⟩ => ⟨S64x1, .f32⟩
  | .local _ .vmem, ⟨4, _⟩ => ⟨S1x64x256, .f32⟩
  | .local _ .vmem, ⟨5, _⟩ => ⟨S1x64x256, .f32⟩
  | .local _ .vmem, ⟨6, _⟩ => ⟨S1x64x1, .f32⟩
  | .local _ .vmem, ⟨7, _⟩ => ⟨S1x64x1, .f32⟩
  | .local _ .vmem, ⟨8, _⟩ => ⟨S64x256, .f32⟩
  | .local _ .vmem, ⟨9, _⟩ => ⟨S64x1, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x256x512x512_S256x262144 : S1x256x512x512.ShapeCasts S256x262144
  shapeCasts_S64_S64x1 : S64.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  broadcasts_S64x1_S64x8192 : S64x1.Broadcasts S64x8192
  reduces_S64x8192_S8192 : S64x8192.Reduces [0] S8192
  shapeCasts_S8192_S1x8192 : S8192.ShapeCasts S1x8192
  broadcasts_S1x8192_S64x8192 : S1x8192.Broadcasts S64x8192
  reduces_S64x8192_S64 : S64x8192.Reduces [1] S64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S2x64x256_S64x256_d0 : S2x64x256.ReducesTo [0] S64x256
  h_S_ : 0 < S_.numel
  reducesTo_S2x64x1_S64x1_d0 : S2x64x1.ReducesTo [0] S64x1
  bcast_S64x1_S64x256_0_1 : S64x1.BroadcastsInDim S64x256 (![0, 1] : Fin 2 → Fin S64x256.rank)
  reducesTo_S64x256_S256_d0 : S64x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S64x256_0_1 : S1x256.BroadcastsInDim S64x256 (![0, 1] : Fin 2 → Fin S64x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  dot_S64x256_S256x8192_S64x8192_1_0_0_1_n_n_wf : DotDims.WF S64x256 S256x8192 S64x8192 [1] [0] [0] [1] [] []
  dot_S64x8192_S256x8192_S64x256_1_1_0_0_n_n_wf : DotDims.WF S64x8192 S256x8192 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x262144.size a
  hwx0_0 : ∀ i : grid0.Coords, EltTy.bits .f32 = 32 ∨ (Rect.block (s := S256x262144) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S2x64x256.size a
  hwx0_3 : ∀ i : grid0.Coords, EltTy.bits .f32 = 32 ∨ (Rect.block (s := S2x64x256) S1x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)

variable [Facts₀]

def dot_S64x256_S256x8192_S64x8192_1_0_0_1_n_n : DotDims S64x256 S256x8192 S64x8192 where
  lhsContracting := [1]
  rhsContracting := [0]
  lhsNonContracting := [0]
  rhsNonContracting := [1]
  lhsBatch := []
  rhsBatch := []
  wf := dot_S64x256_S256x8192_S64x8192_1_0_0_1_n_n_wf
def dot_S64x8192_S256x8192_S64x256_1_1_0_0_n_n : DotDims S64x8192 S256x8192 S64x256 where
  lhsContracting := [1]
  rhsContracting := [1]
  lhsNonContracting := [0]
  rhsNonContracting := [0]
  lhsBatch := []
  rhsBatch := []
  wf := dot_S64x8192_S256x8192_S64x256_1_1_0_0_n_n_wf

abbrev win0_0 : Pipeline.Window sig grid0 :=
  Pipeline.Window.ofSpec (Memref.whole main_v0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x64x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x256x512x512 : Shape := ⟨4, ![1, 256, 512, 512]⟩
abbrev S64x256 : Shape := ⟨2, ![64, 256]⟩
abbrev S64 : Shape := ⟨1, ![64]⟩
abbrev S256x262144 : Shape := ⟨2, ![256, 262144]⟩
abbrev S64x262144 : Shape := ⟨2, ![64, 262144]⟩
abbrev S64x1 : Shape := ⟨2, ![64, 1]⟩
abbrev S_ : Shape := ⟨0, ![]⟩
abbrev S262144 : Shape := ⟨1, ![262144]⟩
abbrev S1x262144 : Shape := ⟨2, ![1, 262144]⟩
abbrev S256 : Shape := ⟨1, ![256]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S64x256, .f32⟩
  | .hbm, ⟨2, _⟩ => ⟨S64x256, .f32⟩
  | .hbm, ⟨3, _⟩ => ⟨S64, .f32⟩
  | .hbm, ⟨4, _⟩ => ⟨S256x262144, .f32⟩
  | .hbm, ⟨5, _⟩ => ⟨S64x262144, .f32⟩
  | .hbm, ⟨6, _⟩ => ⟨S64x1, .f32⟩
  | .hbm, ⟨7, _⟩ => ⟨S64x262144, .f32⟩
  | .hbm, ⟨8, _⟩ => ⟨S64x262144, .f32⟩
  | .hbm, ⟨9, _⟩ => ⟨S_, .f32⟩
  | .hbm, ⟨10, _⟩ => ⟨S262144, .f32⟩
  | .hbm, ⟨11, _⟩ => ⟨S_, .f32⟩
  | .hbm, ⟨12, _⟩ => ⟨S262144, .f32⟩
  | .hbm, ⟨13, _⟩ => ⟨S262144, .f32⟩
  | .hbm, ⟨14, _⟩ => ⟨S1x262144, .f32⟩
  | .hbm, ⟨15, _⟩ => ⟨S64x262144, .f32⟩
  | .hbm, ⟨16, _⟩ => ⟨S64x262144, .f32⟩
  | .hbm, ⟨17, _⟩ => ⟨S64x262144, .f32⟩
  | .hbm, ⟨18, _⟩ => ⟨S_, .f32⟩
  | .hbm, ⟨19, _⟩ => ⟨S262144, .f32⟩
  | .hbm, ⟨20, _⟩ => ⟨S1x262144, .f32⟩
  | .hbm, ⟨21, _⟩ => ⟨S64x262144, .f32⟩
  | .hbm, ⟨22, _⟩ => ⟨S64x262144, .f32⟩
  | .hbm, ⟨23, _⟩ => ⟨S64x256, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x256, .f32⟩
  | .hbm, ⟨28, _⟩ => ⟨S64x256, .f32⟩
  | .hbm, ⟨29, _⟩ => ⟨S64x256, .f32⟩
  | .hbm, ⟨30, _⟩ => ⟨S64x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x256, .f32⟩
  | .hbm, ⟨49, _⟩ => ⟨S64x256, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_call1_v2 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S1x256x512x512_S256x262144 : S1x256x512x512.ShapeCasts S256x262144
  bcast_S64_S64x1_0 : S64.BroadcastsInDim S64x1 (![0] : Fin 1 → Fin S64x1.rank)
  bcast_S64x1_S64x262144_0_1 : S64x1.BroadcastsInDim S64x262144 (![0, 1] : Fin 2 → Fin S64x262144.rank)
  reducesTo_S64x262144_S262144_d0 : S64x262144.ReducesTo [0] S262144
  h_S_ : 0 < S_.numel
  bcast_S_S262144 : S_.BroadcastsInDim S262144 (![] : Fin 0 → Fin S262144.rank)
  bcast_S262144_S1x262144_1 : S262144.BroadcastsInDim S1x262144 (![1] : Fin 1 → Fin S1x262144.rank)
  bcast_S1x262144_S64x262144_0_1 : S1x262144.BroadcastsInDim S64x262144 (![0, 1] : Fin 2 → Fin S64x262144.rank)
  reducesTo_S64x262144_S64_d1 : S64x262144.ReducesTo [1] S64
  bcast_S64x1_S64x256_0_1 : S64x1.BroadcastsInDim S64x256 (![0, 1] : Fin 2 → Fin S64x256.rank)
  reducesTo_S64x256_S256_d0 : S64x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S64x256_0_1 : S1x256.BroadcastsInDim S64x256 (![0, 1] : Fin 2 → Fin S64x256.rank)
  reducesTo_S64x256_S64_d1 : S64x256.ReducesTo [1] S64
  bcast_S_S64x1 : S_.BroadcastsInDim S64x1 (![] : Fin 0 → Fin S64x1.rank)
  dot_S64x256_S256x262144_S64x262144_1_0_0_1_n_n_wf : DotDims.WF S64x256 S256x262144 S64x262144 [1] [0] [0] [1] [] []
  dot_S64x262144_S256x262144_S64x256_1_1_0_0_n_n_wf : DotDims.WF S64x262144 S256x262144 S64x256 [1] [1] [0] [0] [] []

variable [Facts₀]

def dot_S64x256_S256x262144_S64x262144_1_0_0_1_n_n : DotDims S64x256 S256x262144 S64x262144 where
  lhsContracting := [1]
  rhsContracting := [0]
  lhsNonContracting := [0]
  rhsNonContracting := [1]
  lhsBatch := []
  rhsBatch := []
  wf := dot_S64x256_S256x262144_S64x262144_1_0_0_1_n_n_wf
def dot_S64x262144_S256x262144_S64x256_1_1_0_0_n_n : DotDims S64x262144 S256x262144 S64x256 where
  lhsContracting := [1]
  rhsContracting := [1]
  lhsNonContracting := [0]
  rhsNonContracting := [0]
  lhsBatch := []
  rhsBatch := []
  wf := dot_S64x262144_S256x262144_S64x256_1_1_0_0_n_n_wf

class Facts : Prop extends Facts₀ where

variable [Facts]
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.Spec.lean ====
/-
  The mathematics both programs compute, over the extended reals, before the two normalisations.

  A descriptor is one column of the feature matrix X (256 rows, 262144 columns). Its logits over the 64 clusters are
  W·col + B; its soft assignment is the softmax of the logits over the clusters (the maximum subtracted first).
  The aggregated residual at (k, d) is
      ∑ n, a(k, n) · X(d, n)  −  C(k, d) · ∑ n, a(k, n).
  The kernel takes the sum over the 262144 columns as 32 blocks of 8192 columns, sixteen consecutive blocks per core,
  accumulating a core's blocks one after the other from zero; the reference takes it in one piece. Addition of extended
  reals is commutative and associative, so the two groupings agree with no finiteness assumption.
-/
import Idealize.ShloMosaic.PureOps.Ideal
import Idealize.ShloMosaic.PureOps.Ideal.Laws
import Idealize.ShloMosaic.Lib.ValueIdx
import proofs.«120541_j82549271429466_2_alg».proof.Proof.LibBlockedSum

noncomputable section

namespace Cert.NetVlad

open Idealize.ShloMosaic Idealize.ShloMosaic.ValueIdx

/-- The feature matrix, the cluster weights / centres, as functions of a rank-2 index. -/
abbrev Feat := (⟨2, ![256, 262144]⟩ : Shape).Idx → EReal
abbrev Clus := (⟨2, ![64, 256]⟩ : Shape).Idx → EReal

/-- The logit of cluster k for one descriptor: the weights' row k against the descriptor, plus the bias. -/
def logit (W : Clus) (B : Fin 64 → EReal) (col : Fin 256 → EReal) (k : Fin 64) : EReal :=
  (∑ d : Fin 256, W (ix2 k d) * col d) + B k

/-- The largest logit of a descriptor: the fold of max over the clusters from the reduction's initial word. -/
def colMax (W : Clus) (B : Fin 64 → EReal) (col : Fin 256 → EReal) : EReal :=
  (Finset.univ : Finset (Fin 64)).fold max (Ideal.ofBits .f32 0xFF800000#32) (logit W B col)

/-- The soft assignment of a descriptor to cluster k: exp (logit − max) over the sum of those exponentials. -/
def soft (W : Clus) (B : Fin 64 → EReal) (col : Fin 256 → EReal) (k : Fin 64) : EReal :=
  Ideal.div (Ideal.exp (logit W B col k - colMax W B col))
    (∑ k' : Fin 64, Ideal.exp (logit W B col k' - colMax W B col))

/-- Column n of the feature matrix, for any natural n (zero past the last column, which nothing reads). -/
def colAt (X : Feat) (n : ℕ) (d : Fin 256) : EReal :=
  if h : n < 262144 then X (ix2 d ⟨n, h⟩) else 0

theorem colAt_fin (X : Feat) (n : Fin 262144) : colAt X n.val = fun d => X (ix2 d n) := by
  funext d; unfold colAt; rw [dif_pos n.isLt]

/-- The aggregated residual before normalisation, the sums over all 262144 descriptors in one piece. -/
def core (X : Feat) (C W : Clus) (B : Fin 64 → EReal) (k : Fin 64) (d : Fin 256) : EReal :=
  (∑ n : Fin 262144, soft W B (fun d' => X (ix2 d' n)) k * X (ix2 d n))
    - C (ix2 k d) * (∑ n : Fin 262144, soft W B (fun d' => X (ix2 d' n)) k)

/-- Block t's share of the first sum: its 8192 columns. -/
def blockV (X : Feat) (W : Clus) (B : Fin 64 → EReal) (t : ℕ) (k : Fin 64) (d : Fin 256) : EReal :=
  ∑ j : Fin 8192, soft W B (colAt X (8192 * t + j.val)) k * colAt X (8192 * t + j.val) d

/-- Block t's share of the second sum. -/
def blockA (X : Feat) (W : Clus) (B : Fin 64 → EReal) (t : ℕ) (k : Fin 64) : EReal :=
  ∑ j : Fin 8192, soft W B (colAt X (8192 * t + j.val)) k

/-- What a core's first accumulator holds after block t: the shares of its blocks so far (the blocks from the last
    multiple of sixteen up to t). -/
def accV (X : Feat) (W : Clus) (B : Fin 64 → EReal) (t : ℕ) (k : Fin 64) (d : Fin 256) : EReal :=
  ∑ s ∈ Finset.range (t % 16 + 1), blockV X W B (t - t % 16 + s) k d

/-- The same for the second accumulator. -/
def accA (X : Feat) (W : Clus) (B : Fin 64 → EReal) (t : ℕ) (k : Fin 64) : EReal :=
  ∑ s ∈ Finset.range (t % 16 + 1), blockA X W B (t - t % 16 + s) k

/-- At a core's first block the accumulator holds that block's share alone. -/
theorem accV_first (X : Feat) (W : Clus) (B : Fin 64 → EReal) (t : ℕ) (h : t % 16 = 0) (k : Fin 64) (d : Fin 256) :
    accV X W B t k d = blockV X W B t k d := by
  unfold accV; rw [h, Finset.sum_range_one, Nat.sub_zero, Nat.add_zero]

theorem accA_first (X : Feat) (W : Clus) (B : Fin 64 → EReal) (t : ℕ) (h : t % 16 = 0) (k : Fin 64) :
    accA X W B t k = blockA X W B t k := by
  unfold accA; rw [h, Finset.sum_range_one, Nat.sub_zero, Nat.add_zero]

/-- At any later block of a core the accumulator holds what it held after the block before, plus this block's share. -/
theorem accV_step (X : Feat) (W : Clus) (B : Fin 64 → EReal) (t : ℕ) (h : t % 16 ≠ 0) (k : Fin 64) (d : Fin 256) :
    accV X W B t k d = accV X W B (t - 1) k d + blockV X W B t k d := by
  have h1 : (t - 1) % 16 + 1 = t % 16 := by omega
  have h2 : t - 1 - (t - 1) % 16 = t - t % 16 := by omega
  have h3 : t - t % 16 + t % 16 = t := by omega
  unfold accV
  rw [Finset.sum_range_succ, h3, h2, h1]

theorem accA_step (X : Feat) (W : Clus) (B : Fin 64 → EReal) (t : ℕ) (h : t % 16 ≠ 0) (k : Fin 64) :
    accA X W B t k = accA X W B (t - 1) k + blockA X W B t k := by
  have h1 : (t - 1) % 16 + 1 = t % 16 := by omega
  have h2 : t - 1 - (t - 1) % 16 = t - t % 16 := by omega
  have h3 : t - t % 16 + t % 16 = t := by omega
  unfold accA
  rw [Finset.sum_range_succ, h3, h2, h1]

/-- A sum over the 262144 columns is the sum over the two cores of the sums over a core's sixteen blocks of the sums
    over a block's 8192 columns. -/
theorem sum_cols {M : Type*} [AddCommMonoid M] (H : ℕ → M) :
    ∑ n : Fin 262144, H n.val
      = ∑ ci : Fin 2, ∑ s ∈ Finset.range 16, ∑ j : Fin 8192, H (8192 * (16 * ci.val + s) + j.val) := by
  have e1 : ∑ n : Fin 262144, H n.val = ∑ t : Fin 32, ∑ j : Fin 8192, H (8192 * t.val + j.val) :=
    Cert.BlockedSum.sum_by_blocks (N := 32) (R := 8192) (fun n : Fin 262144 => H n.val)
  have e2 : ∑ t : Fin 32, (∑ j : Fin 8192, H (8192 * t.val + j.val))
      = ∑ ci : Fin 2, ∑ s : Fin 16, ∑ j : Fin 8192, H (8192 * (16 * ci.val + s.val) + j.val) :=
    Cert.BlockedSum.sum_by_blocks (N := 2) (R := 16) (fun t : Fin 32 => ∑ j : Fin 8192, H (8192 * t.val + j.val))
  rw [e1, e2]
  refine Finset.sum_congr rfl fun ci _ => ?_
  exact (Finset.sum_range (fun s => ∑ j : Fin 8192, H (8192 * (16 * ci.val + s) + j.val))).symm

/-- The residual from the two cores' final accumulators: the sums in one piece are the sums of the cores' totals. -/
theorem core_eq_cores (X : Feat) (C W : Clus) (B : Fin 64 → EReal) (k : Fin 64) (d : Fin 256) :
    core X C W B k d
      = (∑ ci : Fin 2, accV X W B (16 * ci.val + 15) k d)
        - C (ix2 k d) * (∑ ci : Fin 2, accA X W B (16 * ci.val + 15) k) := by
  have hV : ∑ n : Fin 262144, soft W B (fun d' => X (ix2 d' n)) k * X (ix2 d n)
      = ∑ ci : Fin 2, accV X W B (16 * ci.val + 15) k d := by
    have e : ∀ n : Fin 262144, soft W B (fun d' => X (ix2 d' n)) k * X (ix2 d n)
        = soft W B (colAt X n.val) k * colAt X n.val d := fun n => by rw [colAt_fin]
    rw [Finset.sum_congr rfl fun n _ => e n, sum_cols (fun n => soft W B (colAt X n) k * colAt X n d)]
    refine Finset.sum_congr rfl fun ci _ => ?_
    have hm : (16 * ci.val + 15) % 16 = 15 := by omega
    unfold accV blockV
    rw [hm]
    refine Finset.sum_congr rfl fun s _ => ?_
    have hs : 16 * ci.val + 15 - 15 + s = 16 * ci.val + s := by omega
    rw [hs]
  have hA : ∑ n : Fin 262144, soft W B (fun d' => X (ix2 d' n)) k
      = ∑ ci : Fin 2, accA X W B (16 * ci.val + 15) k := by
    have e : ∀ n : Fin 262144, soft W B (fun d' => X (ix2 d' n)) k = soft W B (colAt X n.val) k :=
      fun n => by rw [colAt_fin]
    rw [Finset.sum_congr rfl fun n _ => e n, sum_cols (fun n => soft W B (colAt X n) k)]
    refine Finset.sum_congr rfl fun ci _ => ?_
    have hm : (16 * ci.val + 15) % 16 = 15 := by omega
    unfold accA blockA
    rw [hm]
    refine Finset.sum_congr rfl fun s _ => ?_
    have hs : 16 * ci.val + 15 - 15 + s = 16 * ci.val + s := by omega
    rw [hs]
  unfold core
  rw [hV, hA]

end Cert.NetVlad

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«120541_j82549271429466_2_alg».proof.Proof.LibKeepdims
import proofs.«120541_j82549271429466_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.Payload.lean ====
/-
  The kernel body's arithmetic read at an index, at the ideal values: for one block of 8192 descriptors, the soft
  assignments, the two accumulator updates, the zero fills and the two copies to the outputs.
-/
import proofs.«120541_j82549271429466_2_alg».proof.Proof.Gen.KernelIdeal.Skeleton
import proofs.«120541_j82549271429466_2_alg».proof.Proof.Spec
import proofs.«120541_j82549271429466_2_alg».proof.Proof.LibDenseLayer
import proofs.«120541_j82549271429466_2_alg».proof.Proof.LibMatmulRows
import proofs.«120541_j82549271429466_2_alg».proof.Proof.LibMinReduce
import proofs.«120541_j82549271429466_2_alg».proof.Proof.LibRowReduce
import proofs.«120541_j82549271429466_2_alg».proof.Proof.LibKeepdims
import Idealize.ShloMosaic.Lib.ValueLayout

noncomputable section

namespace Cert.KernelIdeal.Body

open Cert.KernelIdeal Cert.KernelIdeal.Gen Cert.NetVlad Idealize.ShloMosaic Idealize.ShloMosaic.ValueIdx

/-- The bias block, a column, as a function of the cluster. -/
def biasOf (b : Vec Ideal S64x1 .f32) : Fin 64 → EReal := fun k => b (ix2 k 0)

/-- Descriptor j of a block of the feature matrix. -/
def colOf (x0 : Vec Ideal S256x8192 .f32) (j : Fin 8192) : Fin 256 → EReal := fun d => x0 (ix2 d j)

/-! ## The two matrix products' index maps

The first product contracts axis 1 of the weights [64, 256] with axis 0 of the block [256, 8192]; the second contracts
axis 1 of the soft assignments [64, 8192] with axis 1 of the block. Each record's left and right index, by coordinate. -/

private abbrev dW := dot_S64x256_S256x8192_S64x8192_1_0_0_1_n_n
private abbrev dV := dot_S64x8192_S256x8192_S64x256_1_1_0_0_n_n

private theorem dW_l0 (i : S64x8192.Idx) (q : dW.contr.Idx) : (dW.lhsIdx i q 0).val = (i 0).val := by
  unfold DotDims.lhsIdx
  rw [dif_neg (show ¬(0 : Fin S64x256.rank) ∈ dW.lhsBatch by decide),
    dif_pos (show (0 : Fin S64x256.rank) ∈ dW.lhsNonContracting by decide)]
  rfl

private theorem dW_l1 (i : S64x8192.Idx) (q : dW.contr.Idx) : (dW.lhsIdx i q 1).val = (q ⟨0, by decide⟩).val :=
  dW.lhsIdx_val_of_single rfl i q

private theorem dW_r0 (i : S64x8192.Idx) (q : dW.contr.Idx) : (dW.rhsIdx i q 0).val = (q ⟨0, by decide⟩).val :=
  dW.rhsIdx_val_of_single rfl i q

private theorem dW_r1 (i : S64x8192.Idx) (q : dW.contr.Idx) : (dW.rhsIdx i q 1).val = (i 1).val := by
  unfold DotDims.rhsIdx
  rw [dif_neg (show ¬(1 : Fin S256x8192.rank) ∈ dW.rhsBatch by decide),
    dif_pos (show (1 : Fin S256x8192.rank) ∈ dW.rhsNonContracting by decide)]
  rfl

private theorem dV_l0 (i : S64x256.Idx) (q : dV.contr.Idx) : (dV.lhsIdx i q 0).val = (i 0).val := by
  unfold DotDims.lhsIdx
  rw [dif_neg (show ¬(0 : Fin S64x8192.rank) ∈ dV.lhsBatch by decide),
    dif_pos (show (0 : Fin S64x8192.rank) ∈ dV.lhsNonContracting by decide)]
  rfl

private theorem dV_l1 (i : S64x256.Idx) (q : dV.contr.Idx) : (dV.lhsIdx i q 1).val = (q ⟨0, by decide⟩).val :=
  dV.lhsIdx_val_of_single rfl i q

private theorem dV_r0 (i : S64x256.Idx) (q : dV.contr.Idx) : (dV.rhsIdx i q 0).val = (i 1).val := by
  unfold DotDims.rhsIdx
  rw [dif_neg (show ¬(0 : Fin S256x8192.rank) ∈ dV.rhsBatch by decide),
    dif_pos (show (0 : Fin S256x8192.rank) ∈ dV.rhsNonContracting by decide)]
  rfl

private theorem dV_r1 (i : S64x256.Idx) (q : dV.contr.Idx) : (dV.rhsIdx i q 1).val = (q ⟨0, by decide⟩).val :=
  dV.rhsIdx_val_of_single rfl i q

/-! ## A matrix reduced along its rows, one value per column -/

/-- The maximum of column c: the fold of max, from the accumulator's value, over the column's entries. -/
private theorem colMaxRed_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun p => src (ix2 p c)) := by
  refine (Ideal.multiReduction_maximumf_single src acc h hφ hacc (ix1 c)).trans ?_
  refine congrArg (fun f => (Finset.univ : Finset (Fin a)).fold max (Ideal.ofBits φ acc) f) ?_
  funext p
  exact congrArg src (Cert.MinReduce.lift_rows h c p)

/-- The sum of column c: the sum of the column's entries. -/
private theorem colSumRed_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  exact Finset.sum_congr rfl fun p _ => congrArg src (Cert.MinReduce.lift_rows h c p)

/-- A vector of b entries cast to one row [1, b] and broadcast over a rows reads, at (p, c), the vector's entry c. -/
private theorem keepRow_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply (shapeCast ⟨2, ![1, b]⟩ v hc) hb p c).trans (shapeCast_a_1a_apply v hc 0 c)

/-! ## The soft assignments, stage by stage -/

/-- The logits of the block: weights times block, plus the bias column spread over the descriptors. -/
private def lg (x0 : Vec Ideal S256x8192 .f32) (w : Vec Ideal S64x256 .f32) (b : Vec Ideal S64x1 .f32) :
    FVec Ideal S64x8192 .f32 :=
  addf (matmul (φ₁ := .f32) (φ₂ := .f32) dW (some .fp32) w (k0_pay5 (F := Ideal) x0) (constant S64x8192 .f32 0x00000000#32))
    (broadcastTo S64x8192 (shapeCast S64x1 b shapeCasts_S64x1_S64x1) broadcasts_S64x1_S64x8192)

/-- Each descriptor's largest logit, spread back over the clusters. -/
private def mx (x0 : Vec Ideal S256x8192 .f32) (w : Vec Ideal S64x256 .f32) (b : Vec Ideal S64x1 .f32) :
    FVec Ideal S64x8192 .f32 :=
  broadcastTo S64x8192
    (shapeCast S1x8192
      (multiReduction .maximumf [0] S8192 (lg x0 w b) 0xFF800000#32 reduces_S64x8192_S8192 (.inl rfl) rfl)
      shapeCasts_S8192_S1x8192)
    broadcasts_S1x8192_S64x8192

/-- The exponentials of the logits less the descriptor's maximum. -/
private def ex (x0 : Vec Ideal S256x8192 .f32) (w : Vec Ideal S64x256 .f32) (b : Vec Ideal S64x1 .f32) :
    FVec Ideal S64x8192 .f32 :=
  exp (subf (lg x0 w b) (mx x0 w b))

/-- Each descriptor's sum of exponentials, spread back over the clusters. -/
private def sm (x0 : Vec Ideal S256x8192 .f32) (w : Vec Ideal S64x256 .f32) (b : Vec Ideal S64x1 .f32) :
    FVec Ideal S64x8192 .f32 :=
  broadcastTo S64x8192
    (shapeCast S1x8192
      (multiReduction .add [0] S8192 (ex x0 w b) 0x00000000#32 reduces_S64x8192_S8192 (.inl rfl) rfl)
      shapeCasts_S8192_S1x8192)
    broadcasts_S1x8192_S64x8192

private theorem pay6_eq (x0 : Vec Ideal S256x8192 .f32) (w : Vec Ideal S64x256 .f32) (b : Vec Ideal S64x1 .f32) :
    k0_pay6 (F := Ideal) x0 w b = divf (ex x0 w b) (sm x0 w b) := rfl

private theorem pay5_eq (x0 : Vec Ideal S256x8192 .f32) : k0_pay5 (F := Ideal) x0 = x0 :=
  shapeCast_self x0 shapeCasts_S256x8192_S256x8192

private theorem lg_apply (x0 : Vec Ideal S256x8192 .f32) (w : Vec Ideal S64x256 .f32) (b : Vec Ideal S64x1 .f32)
    (k : Fin 64) (j : Fin 8192) : lg x0 w b (ix2 k j) = logit w (biasOf b) (colOf x0 j) k := by
  have hm : matmul (φ₁ := .f32) (φ₂ := .f32) dW (some .fp32) w (k0_pay5 (F := Ideal) x0) (constant S64x8192 .f32 0x00000000#32) (ix2 k j)
      = ∑ d : Fin 256, w (ix2 k d) * colOf x0 j d :=
    (Cert.DenseLayer.matmul_rows_cols dW rfl rfl dW_l0 dW_l1 dW_r0 dW_r1 (some .fp32) w (k0_pay5 (F := Ideal) x0) k j).trans
      (Finset.sum_congr rfl fun d _ => congrArg (fun t => w (ix2 k d) * t) (congrFun (pay5_eq x0) (ix2 d j)))
  have hb : broadcastTo S64x8192 (shapeCast S64x1 b shapeCasts_S64x1_S64x1) broadcasts_S64x1_S64x8192 (ix2 k j)
      = biasOf b k :=
    (Cert.Keepdims.broadcastTo_a1_ab_apply (shapeCast S64x1 b shapeCasts_S64x1_S64x1) broadcasts_S64x1_S64x8192 k j).trans
      (congrFun (shapeCast_self b shapeCasts_S64x1_S64x1) (ix2 k (0 : Fin 1)))
  show matmul (φ₁ := .f32) (φ₂ := .f32) dW (some .fp32) w (k0_pay5 (F := Ideal) x0) (constant S64x8192 .f32 0x00000000#32) (ix2 k j)
      + broadcastTo S64x8192 (shapeCast S64x1 b shapeCasts_S64x1_S64x1) broadcasts_S64x1_S64x8192 (ix2 k j)
    = (∑ d : Fin 256, w (ix2 k d) * colOf x0 j d) + biasOf b k
  rw [hm, hb]

private theorem mx_apply (x0 : Vec Ideal S256x8192 .f32) (w : Vec Ideal S64x256 .f32) (b : Vec Ideal S64x1 .f32)
    (k : Fin 64) (j : Fin 8192) : mx x0 w b (ix2 k j) = colMax w (biasOf b) (colOf x0 j) := by
  refine (keepRow_apply
    (multiReduction .maximumf [0] S8192 (lg x0 w b) 0xFF800000#32 reduces_S64x8192_S8192 (.inl rfl) rfl)
    shapeCasts_S8192_S1x8192 broadcasts_S1x8192_S64x8192 k j).trans ?_
  refine (colMaxRed_apply (lg x0 w b) 0xFF800000#32 reduces_S64x8192_S8192 (.inl rfl) rfl j).trans ?_
  unfold colMax
  refine congrArg (fun f => (Finset.univ : Finset (Fin 64)).fold max (Ideal.ofBits .f32 0xFF800000#32) f) ?_
  funext p
  exact lg_apply x0 w b p j

private theorem ex_apply (x0 : Vec Ideal S256x8192 .f32) (w : Vec Ideal S64x256 .f32) (b : Vec Ideal S64x1 .f32)
    (k : Fin 64) (j : Fin 8192) :
    ex x0 w b (ix2 k j) = Ideal.exp (logit w (biasOf b) (colOf x0 j) k - colMax w (biasOf b) (colOf x0 j)) := by
  show Ideal.exp (lg x0 w b (ix2 k j) - mx x0 w b (ix2 k j)) = _
  rw [lg_apply, mx_apply]

private theorem sm_apply (x0 : Vec Ideal S256x8192 .f32) (w : Vec Ideal S64x256 .f32) (b : Vec Ideal S64x1 .f32)
    (k : Fin 64) (j : Fin 8192) :
    sm x0 w b (ix2 k j)
      = ∑ k' : Fin 64, Ideal.exp (logit w (biasOf b) (colOf x0 j) k' - colMax w (biasOf b) (colOf x0 j)) := by
  refine (keepRow_apply
    (multiReduction .add [0] S8192 (ex x0 w b) 0x00000000#32 reduces_S64x8192_S8192 (.inl rfl) rfl)
    shapeCasts_S8192_S1x8192 broadcasts_S1x8192_S64x8192 k j).trans ?_
  refine (colSumRed_apply (ex x0 w b) 0x00000000#32 reduces_S64x8192_S8192 (.inl rfl) rfl j).trans ?_
  exact Finset.sum_congr rfl fun p _ => ex_apply x0 w b p j

/-- The block's soft assignments: entry (k, j) is descriptor j's soft assignment to cluster k. -/
theorem pay6_apply (x0 : Vec Ideal S256x8192 .f32) (w : Vec Ideal S64x256 .f32) (b : Vec Ideal S64x1 .f32)
    (k : Fin 64) (j : Fin 8192) :
    k0_pay6 (F := Ideal) x0 w b (ix2 k j) = soft w (biasOf b) (colOf x0 j) k := by
  rw [pay6_eq]
  show Ideal.div (ex x0 w b (ix2 k j)) (sm x0 w b (ix2 k j)) = _
  rw [ex_apply, sm_apply]
  rfl

/-- The first accumulator's update: what it held plus the block's share of the first sum. -/
theorem pay7_apply (x0 : Vec Ideal S256x8192 .f32) (w : Vec Ideal S64x256 .f32) (b : Vec Ideal S64x1 .f32)
    (acc : Vec Ideal S64x256 .f32) (k : Fin 64) (d : Fin 256) :
    k0_pay7 (F := Ideal) x0 w b acc (ix2 k d)
      = acc (ix2 k d) + ∑ j : Fin 8192, soft w (biasOf b) (colOf x0 j) k * x0 (ix2 d j) := by
  have hm : matmul (φ₁ := .f32) (φ₂ := .f32) dV (some .fp32) (k0_pay6 (F := Ideal) x0 w b) (k0_pay5 (F := Ideal) x0)
        (constant S64x256 .f32 0x00000000#32) (ix2 k d)
      = ∑ j : Fin 8192, soft w (biasOf b) (colOf x0 j) k * x0 (ix2 d j) :=
    (Cert.MatmulRows.matmul_rows_rows dV rfl rfl dV_l0 dV_l1 dV_r0 dV_r1 (some .fp32)
        (k0_pay6 (F := Ideal) x0 w b) (k0_pay5 (F := Ideal) x0) k d).trans
      (Finset.sum_congr rfl fun j _ =>
        congrArg₂ (· * ·) (pay6_apply x0 w b k j) (congrFun (pay5_eq x0) (ix2 d j)))
  have hc : k0_pay7 (F := Ideal) x0 w b acc
      = addf acc (matmul (φ₁ := .f32) (φ₂ := .f32) dV (some .fp32) (k0_pay6 (F := Ideal) x0 w b) (k0_pay5 (F := Ideal) x0)
          (constant S64x256 .f32 0x00000000#32)) :=
    shapeCast_self _ shapeCasts_S64x256_S64x256
  rw [hc]
  show acc (ix2 k d) + matmul (φ₁ := .f32) (φ₂ := .f32) dV (some .fp32) (k0_pay6 (F := Ideal) x0 w b) (k0_pay5 (F := Ideal) x0)
        (constant S64x256 .f32 0x00000000#32) (ix2 k d) = _
  rw [hm]

/-- The second accumulator's update: what it held plus the block's share of the second sum. -/
theorem pay8_apply (x0 : Vec Ideal S256x8192 .f32) (w : Vec Ideal S64x256 .f32) (b : Vec Ideal S64x1 .f32)
    (asum : Vec Ideal S64x1 .f32) (k : Fin 64) :
    k0_pay8 (F := Ideal) x0 w b asum (ix2 k 0)
      = asum (ix2 k 0) + ∑ j : Fin 8192, soft w (biasOf b) (colOf x0 j) k := by
  have hs : shapeCast S64x1
        (multiReduction .add [1] S64 (k0_pay6 (F := Ideal) x0 w b) 0x00000000#32 reduces_S64x8192_S64 (.inl rfl) rfl)
        shapeCasts_S64_S64x1 (ix2 k (0 : Fin 1))
      = ∑ j : Fin 8192, soft w (biasOf b) (colOf x0 j) k :=
    ((Cert.Keepdims.shapeCast_a_a1_apply
        (multiReduction .add [1] S64 (k0_pay6 (F := Ideal) x0 w b) 0x00000000#32 reduces_S64x8192_S64 (.inl rfl) rfl)
        shapeCasts_S64_S64x1 k 0).trans
      (Cert.RowReduce.rowSum_apply (k0_pay6 (F := Ideal) x0 w b) 0x00000000#32 reduces_S64x8192_S64 (.inl rfl) rfl k)).trans
      (Finset.sum_congr rfl fun j _ => pay6_apply x0 w b k j)
  have hc : k0_pay8 (F := Ideal) x0 w b asum
      = addf asum (shapeCast S64x1
          (multiReduction .add [1] S64 (k0_pay6 (F := Ideal) x0 w b) 0x00000000#32 reduces_S64x8192_S64 (.inl rfl) rfl)
          shapeCasts_S64_S64x1) :=
    shapeCast_self _ shapeCasts_S64x1_S64x1
  rw [hc]
  show asum (ix2 k 0) + shapeCast S64x1
        (multiReduction .add [1] S64 (k0_pay6 (F := Ideal) x0 w b) 0x00000000#32 reduces_S64x8192_S64 (.inl rfl) rfl)
        shapeCasts_S64_S64x1 (ix2 k (0 : Fin 1)) = _
  rw [hs]

/-- The zero fills. -/
theorem pay3_apply (k : Fin 64) (d : Fin 256) : k0_pay3 (F := Ideal) (ix2 k d) = 0 := by
  have hc : k0_pay3 (F := Ideal) = broadcast S64x256 (Scalar.ofBits (F := Ideal) .f32 0x00000000#32) :=
    shapeCast_self _ shapeCasts_S64x256_S64x256
  rw [hc]
  exact Ideal.ofBits_zero_f32

theorem pay4_apply (k : Fin 64) : k0_pay4 (F := Ideal) (ix2 k 0) = 0 := by
  have hc : k0_pay4 (F := Ideal) = broadcast S64x1 (Scalar.ofBits (F := Ideal) .f32 0x00000000#32) :=
    shapeCast_self _ shapeCasts_S64x1_S64x1
  rw [hc]
  exact Ideal.ofBits_zero_f32

/-- The copies to the outputs only add a leading unit axis. -/
theorem pay1_apply (v : Vec Ideal S64x256 .f32) (k : Fin 64) (d : Fin 256) :
    k0_pay1 (F := Ideal) v (ix3 0 k d) = v (ix2 k d) :=
  shapeCast_ab_1ab_apply v shapeCasts_S64x256_S1x64x256 0 k d

theorem pay2_apply (v : Vec Ideal S64x1 .f32) (k : Fin 64) :
    k0_pay2 (F := Ideal) v (ix3 0 k 0) = v (ix2 k 0) :=
  shapeCast_ab_1ab_apply v shapeCasts_S64x1_S1x64x1 0 k 0

end Cert.KernelIdeal.Body

end
-- ==== Proof.Pieces.lean ====
/-
  What each control case of the body leaves in the two accumulators and, at a core's last block, in the two outputs'
  staging buffers, as the body's payloads of the blocks it loaded: the first block of a core zero-fills both
  accumulators and then adds its share; every later block adds its share to what the block before left; the last block
  of a core also copies both accumulators out.
-/
import proofs.«120541_j82549271429466_2_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.SL.Sem
open Idealize.ShloMosaic.Tactic

variable {F : FTy → Type} [FloatOps F]

/-- The zero offsets of a rank-2 block, as the constant function. -/
private theorem zeros2 : (![0, 0] : Fin 2 → Nat) = fun _ => 0 := funext fun a => by fin_cases a <;> rfl

/-- The zero offsets of a rank-3 block, as the constant function. -/
private theorem zeros3 : (![0, 0, 0] : Fin 3 → Nat) = fun _ => 0 := funext fun a => by fin_cases a <;> rfl

/-- A core's first block: the first accumulator is zero-filled, read back, and this block's share added. -/
theorem sout0_A_0_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : cond0_0 i) (hc1 : ¬cond0_1 i)
    (x0 : Vec F S256x8192 .f32) (x1 : Vec F S64x256 .f32) (x2 : Vec F S64x1 .f32) :
    sout0_A_0 c i arg2 harg2 arg3 harg3 arg4 harg4 arg5 harg5 arg6 harg6 arg7 harg7 arg8 harg8 hc0 hc1 x0 x1 x2 = k0_pay7 x0 x1 x2 (k0_pay3 (F := F)) := by
  -- two whole-block stores: the later one (the sum) wins, and its accumulator operand is the load of the zero fill
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S64x256) zeros2, View.readCov_unit_zero (S := S64x256) _ zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A core's first block: the same for the second accumulator. -/
theorem sout0_A_1_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : cond0_0 i) (hc1 : ¬cond0_1 i)
    (x0 : Vec F S256x8192 .f32) (x1 : Vec F S64x256 .f32) (x2 : Vec F S64x1 .f32) :
    sout0_A_1 c i arg2 harg2 arg3 harg3 arg4 harg4 arg5 harg5 arg6 harg6 arg7 harg7 arg8 harg8 hc0 hc1 x0 x1 x2 = k0_pay8 x0 x1 x2 (k0_pay4 (F := F)) := by
  -- two whole-block stores: the later one (the sum) wins, and its accumulator operand is the load of the zero fill
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S64x1) zeros2, View.readCov_unit_zero (S := S64x1) _ zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A middle block: this block's share added to what the block before left. -/
theorem sout0_B_0_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : ¬cond0_1 i)
    (x0 : Vec F S256x8192 .f32) (x1 : Vec F S64x256 .f32) (x2 : Vec F S64x1 .f32) (xs0 : Vec F S64x256 .f32) (xs1 : Vec F S64x1 .f32) :
    sout0_B_0 c i arg2 harg2 arg3 harg3 arg4 harg4 arg5 harg5 arg6 harg6 arg7 harg7 arg8 harg8 hc0 hc1 x0 x1 x2 xs0 xs1 = k0_pay7 x0 x1 x2 xs0 := by
  -- one whole-block store, whose accumulator operand is the load of what the block before left
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S64x256) zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A middle block: the same for the second accumulator. -/
theorem sout0_B_1_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : ¬cond0_1 i)
    (x0 : Vec F S256x8192 .f32) (x1 : Vec F S64x256 .f32) (x2 : Vec F S64x1 .f32) (xs0 : Vec F S64x256 .f32) (xs1 : Vec F S64x1 .f32) :
    sout0_B_1 c i arg2 harg2 arg3 harg3 arg4 harg4 arg5 harg5 arg6 harg6 arg7 harg7 arg8 harg8 hc0 hc1 x0 x1 x2 xs0 xs1 = k0_pay8 x0 x1 x2 xs1 := by
  -- one whole-block store, whose accumulator operand is the load of what the block before left
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero (S := S64x1) zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A core's last block: this block's share added to what the block before left. -/
theorem sout0_C_0_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : cond0_1 i)
    (x0 : Vec F S256x8192 .f32) (x1 : Vec F S64x256 .f32) (x2 : Vec F S64x1 .f32) (xs0 : Vec F S64x256 .f32) (xs1 : Vec F S64x1 .f32) :
    sout0_C_0 c i arg2 harg2 arg3 harg3 arg4 harg4 arg5 harg5 arg6 harg6 arg7 harg7 arg8 harg8 hc0 hc1 x0 x1 x2 xs0 xs1 = k0_pay7 x0 x1 x2 xs0 := by
  -- one whole-block store, whose accumulator operand is the load of what the block before left
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S64x256) zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A core's last block: the same for the second accumulator. -/
theorem sout0_C_1_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : cond0_1 i)
    (x0 : Vec F S256x8192 .f32) (x1 : Vec F S64x256 .f32) (x2 : Vec F S64x1 .f32) (xs0 : Vec F S64x256 .f32) (xs1 : Vec F S64x1 .f32) :
    sout0_C_1 c i arg2 harg2 arg3 harg3 arg4 harg4 arg5 harg5 arg6 harg6 arg7 harg7 arg8 harg8 hc0 hc1 x0 x1 x2 xs0 xs1 = k0_pay8 x0 x1 x2 xs1 := by
  -- one whole-block store, whose accumulator operand is the load of what the block before left
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S64x1) zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A core's last block: the first output's staging buffer takes the updated first accumulator. -/
theorem out0_C_3_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : cond0_1 i)
    (x0 : Vec F S256x8192 .f32) (x1 : Vec F S64x256 .f32) (x2 : Vec F S64x1 .f32) (xs0 : Vec F S64x256 .f32) (xs1 : Vec F S64x1 .f32) :
    out0_C_3 c i arg2 harg2 arg3 harg3 arg4 harg4 arg5 harg5 arg6 harg6 arg7 harg7 arg8 harg8 hc0 hc1 x0 x1 x2 xs0 xs1 = k0_pay1 (k0_pay7 x0 x1 x2 xs0) := by
  -- one whole-block store of the accumulator as loaded back after its own whole-block store
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x64x256) zeros3, View.readCov_unit_zero (S := S64x256) _ zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

/-- A core's last block: the second output's staging buffer takes the updated second accumulator. -/
theorem out0_C_4_eq (c : Dev nD) (i : grid0.Coords) (arg2 : Memref sig .tc .vmem S256x8192 .f32) (harg2 : arg2.IsWhole) (arg3 : Memref sig .tc .vmem S64x256 .f32) (harg3 : arg3.IsWhole) (arg4 : Memref sig .tc .vmem S64x1 .f32) (harg4 : arg4.IsWhole) (arg5 : Memref sig .tc .vmem S1x64x256 .f32) (harg5 : arg5.IsWhole) (arg6 : Memref sig .tc .vmem S1x64x1 .f32) (harg6 : arg6.IsWhole) (arg7 : Memref sig .tc .vmem S64x256 .f32) (harg7 : arg7.IsWhole) (arg8 : Memref sig .tc .vmem S64x1 .f32) (harg8 : arg8.IsWhole) (hc0 : ¬cond0_0 i) (hc1 : cond0_1 i)
    (x0 : Vec F S256x8192 .f32) (x1 : Vec F S64x256 .f32) (x2 : Vec F S64x1 .f32) (xs0 : Vec F S64x256 .f32) (xs1 : Vec F S64x1 .f32) :
    out0_C_4 c i arg2 harg2 arg3 harg3 arg4 harg4 arg5 harg5 arg6 harg6 arg7 harg7 arg8 harg8 hc0 hc1 x0 x1 x2 xs0 xs1 = k0_pay2 (k0_pay8 x0 x1 x2 xs1) := by
  -- one whole-block store of the accumulator as loaded back after its own whole-block store
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero (S := S1x64x1) zeros3, View.readCov_unit_zero (S := S64x1) _ zeros2]
  -- every load of a whole staging block reads that block's contents
  simp only [View.readAt_eq_ld, harg2.read_unread, harg3.read_unread, harg4.read_unread, harg7.read_unread,
    harg8.read_unread, View.ld_unit_zero (S := S256x8192) zeros2, View.ld_unit_zero (S := S64x256) zeros2,
    View.ld_unit_zero (S := S64x1) zeros2]

end Cert.KernelIdeal.Pieces

end
-- ==== Proof.Blocks.lean ====
/-
  The blocks the body is handed at a grid point, read off the arrays the region finds: point t's descriptor block is
  columns 8192·t … 8192·t + 8191 of the feature matrix; the weight and bias blocks are the whole arrays at every point.
  And the two arrays the host prepares before the region: the feature matrix is the input reshaped to 256 rows, the
  bias column is the bias vector with a unit axis appended.
-/
import proofs.«120541_j82549271429466_2_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- Column j of block t is column 8192·t + j of the matrix. -/
theorem col_lt (t : Fin cfg0.N) (j : Fin 8192) : 8192 * t.val + j.val < 262144 := by
  have h := lt_of_lt_of_eq t.isLt (show cfg0.N = 32 from N_0)
  have := j.isLt
  omega

/-- The block indices of the three input windows at point t: the descriptor window sits at block row 0 and block
    column t (the index map sends the point (t / 16, t % 16) to 16·(t / 16) + t % 16 = t); the weight and bias windows
    sit at block (0, 0) at every point. Decided over the 32 points of the grid. -/
theorem index0 : ∀ t : Fin cfg0.N, win0_0.index t (0 : Fin 2) = 0 ∧ win0_0.index t (1 : Fin 2) = t.val :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

/-- The descriptor block at point t. -/
theorem iblk0_apply (c : Dev nD) (t : Fin cfg0.N) (d : Fin 256) (j : Fin 8192) :
    iblk m c 0 t (ix2 d j) = V m c main_v0 (ix2 d ⟨8192 * t.val + j.val, col_lt t j⟩) := by
  unfold iblk
  show V m c main_v0 (((cfg0.win 0).blk t).view.emb (ix2 d j)) = V m c main_v0 (ix2 d ⟨8192 * t.val + j.val, col_lt t j⟩)
  obtain ⟨e0, e1⟩ := index0 t
  refine congrArg (V m c main_v0) ?_
  -- on each axis the array coordinate is (block index) · (block size) + 1 · (coordinate inside the block)
  funext a; apply Fin.ext
  match a with
  | ⟨0, _⟩ => show win0_0.index t (0 : Fin 2) * 256 + 1 * d.val = d.val; omega
  | ⟨1, _⟩ => show win0_0.index t (1 : Fin 2) * 8192 + 1 * j.val = 8192 * t.val + j.val; omega

/-- The weight block at every point is the whole weight matrix. -/
theorem iblk1_apply (c : Dev nD) (t : Fin cfg0.N) (k : Fin 64) (d : Fin 256) :
    iblk m c 1 t (ix2 k d) = V m c main_arg2 (ix2 k d) := by
  unfold iblk
  show V m c main_arg2 (((cfg0.win 1).blk t).view.emb (ix2 k d)) = V m c main_arg2 (ix2 k d)
  obtain ⟨e0, e1⟩ := index1 t
  refine congrArg (V m c main_arg2) ?_
  funext a; apply Fin.ext
  match a with
  | ⟨0, _⟩ => show win0_1.index t (0 : Fin 2) * 64 + 1 * k.val = k.val; omega
  | ⟨1, _⟩ => show win0_1.index t (1 : Fin 2) * 256 + 1 * d.val = d.val; omega

/-- The bias block at every point is the whole bias column. -/
theorem iblk2_apply (c : Dev nD) (t : Fin cfg0.N) (k : Fin 64) :
    iblk m c 2 t (ix2 k 0) = V m c main_v1 (ix2 k 0) := by
  unfold iblk
  show V m c main_v1 (((cfg0.win 2).blk t).view.emb (ix2 k 0)) = V m c main_v1 (ix2 k 0)
  obtain ⟨e0, e1⟩ := index2 t
  refine congrArg (V m c main_v1) ?_
  funext a; apply Fin.ext
  match a with
  | ⟨0, _⟩ => show win0_2.index t (0 : Fin 2) * 64 + 1 * k.val = k.val; omega
  | ⟨1, _⟩ => show win0_2.index t (1 : Fin 2) * 1 + 1 * 0 = 0; omega

/-- The feature matrix the region finds is the input, reshaped. -/
theorem V_main_v0_eq (c : Dev nD) :
    V m c main_v0 = shapeCast S256x262144 (m ((c : Thread nD τ).loc main_arg0)) shapeCasts_S1x256x512x512_S256x262144 := by
  -- the first host operation writes the reshaped input into the matrix; the second writes another buffer
  show StableHlo.after hostOps0 (fun b => m (c, b)) (Proc.devRef .tc main_v0) = _
  after_results
  rfl

/-- A vector of 64 entries reshaped to a column [64, 1] reads, at (k, 0), the vector's entry k: a reshape reads the
    operand at the index with the same row-major position, and (k, 0) sits at k · 1 + 0 = k. -/
theorem column_apply {α : Type} (x : S64.Idx → α) (h : S64.ShapeCasts S64x1) (k : Fin 64) :
    shapeCast S64x1 x h (ix2 k 0) = x (ix1 k) :=
  shapeCast_apply x h (ix2 k 0) (ix1 k) (by
    rw [Shape.rowMajor_val_two, Shape.rowMajor_val_one]
    show k.val = k.val * 1 + 0
    omega)

/-- The bias column the region finds is the bias vector, reshaped. -/
theorem V_main_v1_eq (c : Dev nD) :
    V m c main_v1 = shapeCast S64x1 (m ((c : Thread nD τ).loc main_arg3)) shapeCasts_S64_S64x1 := by
  show StableHlo.after hostOps0 (fun b => m (c, b)) (Proc.devRef .tc main_v1) = _
  after_results
  rfl

/-- The bias column the region finds: entry (k, 0) is entry k of the bias vector. -/
theorem V_main_v1_apply (c : Dev nD) (k : Fin 64) :
    V m c main_v1 (ix2 k 0) = m ((c : Thread nD τ).loc main_arg3) (ix1 k) := by
  rw [V_main_v1_eq]
  exact column_apply (m ((c : Thread nD τ).loc main_arg3)) shapeCasts_S64_S64x1 k

/-! ## The two output windows

Each core's 16 points share one output block, the core's own slab: the block index of both output windows at point t
is (t / 16, 0, 0), so the block is written back at the core's last point only, t % 16 = 15. -/

/-- Output window 3 is written back exactly at each core's last point. -/
theorem flush3_iff : ∀ t : Fin cfg0.N, (cfg0.win 3).flush t = true ↔ t.val % 16 = 15 :=
  (by decide +kernel : ∀ t : Fin grid0.N, _)

/-- Output window 4 is written back exactly at each core's last point. -/
theorem flush4_iff : ∀ t : Fin cfg0.N, (cfg0.win 4).flush t = true ↔ t.val % 16 = 15 :=
  (by decide +kernel : ∀ t : Fin grid0.N, _)

/-- Point t belongs to core t / 16, one of two. -/
theorem core_lt (t : Fin cfg0.N) : t.val / 16 < 2 := by
  have h := lt_of_lt_of_eq t.isLt (show cfg0.N = 32 from N_0)
  omega

/-- The block indices of the two output windows at point t, decided over the 32 points of the grid. -/
theorem index3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

theorem index4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- Block t of output window 3 is slab t / 16 of the [2, 64, 256] array: entry (0, k, d) of the block is entry
    (t / 16, k, d) of the array. -/
theorem blk3_emb (t : Fin cfg0.N) (y : S1x64x256.Idx) :
    ((cfg0.win 3).blk t).view.emb y = ix3 ⟨t.val / 16, core_lt t⟩ (y 1) (y 2) := by
  obtain ⟨e0, e1, e2⟩ := index3 t
  funext a; apply Fin.ext
  match a with
  | ⟨0, _⟩ => show win0_3.index t (0 : Fin 3) * 1 + 1 * (y 0).val = t.val / 16; have hy : (y 0).val < 1 := (y 0).isLt; omega
  | ⟨1, _⟩ => show win0_3.index t (1 : Fin 3) * 64 + 1 * (y 1).val = (y 1).val; omega
  | ⟨2, _⟩ => show win0_3.index t (2 : Fin 3) * 256 + 1 * (y 2).val = (y 2).val; omega

/-- Block t of output window 4 is slab t / 16 of the [2, 64, 1] array. -/
theorem blk4_emb (t : Fin cfg0.N) (y : S1x64x1.Idx) :
    ((cfg0.win 4).blk t).view.emb y = ix3 ⟨t.val / 16, core_lt t⟩ (y 1) (y 2) := by
  obtain ⟨e0, e1, e2⟩ := index4 t
  funext a; apply Fin.ext
  match a with
  | ⟨0, _⟩ => show win0_4.index t (0 : Fin 3) * 1 + 1 * (y 0).val = t.val / 16; have hy : (y 0).val < 1 := (y 0).isLt; omega
  | ⟨1, _⟩ => show win0_4.index t (1 : Fin 3) * 64 + 1 * (y 1).val = (y 1).val; omega
  | ⟨2, _⟩ => show win0_4.index t (2 : Fin 3) * 1 + 1 * (y 2).val = (y 2).val; omega

end Cert.KernelIdeal.Blocks

end
-- ==== Proof.Accumulate.lean ====
/-
  What the two accumulators hold after every grid point, and what the two outputs' staging buffers hold at a core's
  last block. Point t (of 32, in order) handles columns 8192·t … 8192·t + 8191. A core's first point (t a multiple
  of 16) zero-fills the accumulators and adds block t's shares, every other point adds block t's shares to what the
  point before left: so after point t the accumulators hold the shares of the blocks from the last multiple of 16 up to
  t. At a core's last point the outputs' staging buffers receive the updated accumulators.
-/
import proofs.«120541_j82549271429466_2_alg».proof.Proof.Payload
import proofs.«120541_j82549271429466_2_alg».proof.Proof.Pieces
import proofs.«120541_j82549271429466_2_alg».proof.Proof.Blocks
import proofs.«120541_j82549271429466_2_alg».proof.Proof.Spec

noncomputable section

namespace Cert.KernelIdeal.Acc

open Cert.KernelIdeal Cert.KernelIdeal.Gen Cert.KernelIdeal.Body Cert.NetVlad
open Idealize.ShloMosaic Idealize.ShloMosaic.TcCoe Idealize.ShloMosaic.ValueIdx Idealize.SL.Sem

/-! ## One point's update, over a block given by its entries -/

section steps

variable (X : Feat) (W : Clus) (B : Fin 64 → EReal) (t : ℕ)
  (x0 : Vec Ideal S256x8192 .f32) (w : Vec Ideal S64x256 .f32) (b : Vec Ideal S64x1 .f32)
  (hx : ∀ (d : Fin 256) (j : Fin 8192), x0 (ix2 d j) = colAt X (8192 * t + j.val) d)
  (hw : ∀ (k : Fin 64) (d : Fin 256), w (ix2 k d) = W (ix2 k d))
  (hb : ∀ k : Fin 64, b (ix2 k 0) = B k)

include hx hw hb

/-- The block's soft assignments are the specification's, of the matrix's columns 8192·t + j. -/
theorem soft_block (k : Fin 64) (j : Fin 8192) :
    soft w (biasOf b) (colOf x0 j) k = soft W B (colAt X (8192 * t + j.val)) k := by
  have ew : (w : Clus) = W := funext fun i => by rw [eq_ix2 i]; exact hw _ _
  have eb : biasOf b = B := funext hb
  have ec : colOf x0 j = colAt X (8192 * t + j.val) := funext fun d' => hx d' j
  rw [ec, eb, ew]

/-- The block's share of the first sum. -/
theorem shareV (k : Fin 64) (d : Fin 256) :
    ∑ j : Fin 8192, soft w (biasOf b) (colOf x0 j) k * x0 (ix2 d j) = blockV X W B t k d := by
  unfold blockV
  refine Finset.sum_congr rfl fun j _ => ?_
  rw [soft_block X W B t x0 w b hx hw hb k j, hx d j]

/-- The block's share of the second sum. -/
theorem shareA (k : Fin 64) :
    ∑ j : Fin 8192, soft w (biasOf b) (colOf x0 j) k = blockA X W B t k := by
  unfold blockA
  exact Finset.sum_congr rfl fun j _ => soft_block X W B t x0 w b hx hw hb k j

/-- A core's first point: zero plus the block's share. -/
theorem first_V (ht : t % 16 = 0) (k : Fin 64) (d : Fin 256) :
    k0_pay7 (F := Ideal) x0 w b (k0_pay3 (F := Ideal)) (ix2 k d) = accV X W B t k d := by
  rw [pay7_apply, pay3_apply, zero_add, shareV X W B t x0 w b hx hw hb, accV_first X W B t ht]

theorem first_A (ht : t % 16 = 0) (k : Fin 64) :
    k0_pay8 (F := Ideal) x0 w b (k0_pay4 (F := Ideal)) (ix2 k 0) = accA X W B t k := by
  rw [pay8_apply, pay4_apply, zero_add, shareA X W B t x0 w b hx hw hb, accA_first X W B t ht]

/-- A later point: what the point before left plus the block's share. -/
theorem next_V (ht : t % 16 ≠ 0) (prev : Vec Ideal S64x256 .f32)
    (hp : ∀ (k : Fin 64) (d : Fin 256), prev (ix2 k d) = accV X W B (t - 1) k d) (k : Fin 64) (d : Fin 256) :
    k0_pay7 (F := Ideal) x0 w b prev (ix2 k d) = accV X W B t k d := by
  rw [pay7_apply, hp, shareV X W B t x0 w b hx hw hb, accV_step X W B t ht]

theorem next_A (ht : t % 16 ≠ 0) (prev : Vec Ideal S64x1 .f32)
    (hp : ∀ k : Fin 64, prev (ix2 k 0) = accA X W B (t - 1) k) (k : Fin 64) :
    k0_pay8 (F := Ideal) x0 w b prev (ix2 k 0) = accA X W B t k := by
  rw [pay8_apply, hp, shareA X W B t x0 w b hx hw hb, accA_step X W B t ht]

end steps

/-! ## The arrays the region finds, as the specification's arguments -/

variable (m : (ℓ : Loc nD τ sig) → Buf (Elt Ideal) ℓ)

/-- The feature matrix, the weights and the bias as the region finds them. -/
def featOf (c : Dev nD) : Feat := V m c main_v0
def weightOf (c : Dev nD) : Clus := V m c main_arg2
def biasAt (c : Dev nD) : Fin 64 → EReal := fun k => V m c main_v1 (ix2 k 0)

theorem hx_at (c : Dev nD) (t : Fin cfg0.N) (d : Fin 256) (j : Fin 8192) :
    iblk m c 0 t (ix2 d j) = colAt (featOf m c) (8192 * t.val + j.val) d := by
  rw [Blocks.iblk0_apply]
  unfold colAt featOf
  rw [dif_pos (Blocks.col_lt t j)]

theorem hw_at (c : Dev nD) (t : Fin cfg0.N) (k : Fin 64) (d : Fin 256) :
    iblk m c 1 t (ix2 k d) = weightOf m c (ix2 k d) := Blocks.iblk1_apply m c t k d

theorem hb_at (c : Dev nD) (t : Fin cfg0.N) (k : Fin 64) :
    iblk m c 2 t (ix2 k 0) = biasAt m c k := Blocks.iblk2_apply m c t k

/-! ## The induction over the points -/

/-- After every point the accumulators hold the shares of the core's blocks so far. -/
theorem scratch_inv (c : Dev nD) : ∀ (n : ℕ) (t : Fin cfg0.N), t.val = n →
    (∀ (k : Fin 64) (d : Fin 256), (outsAt0 m c t.val t.isLt).2.2.1 (ix2 k d)
        = accV (featOf m c) (weightOf m c) (biasAt m c) t.val k d)
    ∧ (∀ k : Fin 64, (outsAt0 m c t.val t.isLt).2.2.2 (ix2 k 0)
        = accA (featOf m c) (weightOf m c) (biasAt m c) t.val k) := by
  intro n
  induction n using Nat.strong_induction_on with
  | _ n ih =>
    intro t htn
    subst htn
    have hN : t.val < 32 := lt_of_lt_of_eq t.isLt (show cfg0.N = 32 from N_0)
    by_cases h0 : t.val % 16 = 0
    · have h1 : ¬ t.val % 16 = 15 := by omega
      rw [outsAt0_A m c t h0 h1]
      dsimp only
      refine ⟨fun k d => ?_, fun k => ?_⟩
      · rw [Pieces.sout0_A_0_eq]
        exact first_V (featOf m c) (weightOf m c) (biasAt m c) t.val (iblk m c 0 t) (iblk m c 1 t) (iblk m c 2 t)
          (hx_at m c t) (hw_at m c t) (hb_at m c t) h0 k d
      · rw [Pieces.sout0_A_1_eq]
        exact first_A (featOf m c) (weightOf m c) (biasAt m c) t.val (iblk m c 0 t) (iblk m c 1 t) (iblk m c 2 t)
          (hx_at m c t) (hw_at m c t) (hb_at m c t) h0 k
    · have hpos : t.val - 1 < cfg0.N := Nat.lt_of_le_of_lt (Nat.sub_le _ _) t.isLt
      obtain ⟨ihV, ihA⟩ := ih (t.val - 1) (by omega) ⟨t.val - 1, hpos⟩ rfl
      by_cases h1 : t.val % 16 = 15
      · rw [outsAt0_C m c t h0 h1]
        dsimp only
        refine ⟨fun k d => ?_, fun k => ?_⟩
        · rw [Pieces.sout0_C_0_eq]
          exact next_V (featOf m c) (weightOf m c) (biasAt m c) t.val (iblk m c 0 t) (iblk m c 1 t) (iblk m c 2 t)
            (hx_at m c t) (hw_at m c t) (hb_at m c t) h0 _ ihV k d
        · rw [Pieces.sout0_C_1_eq]
          exact next_A (featOf m c) (weightOf m c) (biasAt m c) t.val (iblk m c 0 t) (iblk m c 1 t) (iblk m c 2 t)
            (hx_at m c t) (hw_at m c t) (hb_at m c t) h0 _ ihA k
      · rw [outsAt0_B m c t h0 h1]
        dsimp only
        refine ⟨fun k d => ?_, fun k => ?_⟩
        · rw [Pieces.sout0_B_0_eq]
          exact next_V (featOf m c) (weightOf m c) (biasAt m c) t.val (iblk m c 0 t) (iblk m c 1 t) (iblk m c 2 t)
            (hx_at m c t) (hw_at m c t) (hb_at m c t) h0 _ ihV k d
        · rw [Pieces.sout0_B_1_eq]
          exact next_A (featOf m c) (weightOf m c) (biasAt m c) t.val (iblk m c 0 t) (iblk m c 1 t) (iblk m c 2 t)
            (hx_at m c t) (hw_at m c t) (hb_at m c t) h0 _ ihA k

/-- At a core's last point the outputs' staging buffers hold the core's totals. -/
theorem out_last (c : Dev nD) (t : Fin cfg0.N) (h1 : t.val % 16 = 15) :
    (∀ (k : Fin 64) (d : Fin 256), (outsAt0 m c t.val t.isLt).1 (ix3 0 k d)
        = accV (featOf m c) (weightOf m c) (biasAt m c) t.val k d)
    ∧ (∀ k : Fin 64, (outsAt0 m c t.val t.isLt).2.1 (ix3 0 k 0)
        = accA (featOf m c) (weightOf m c) (biasAt m c) t.val k) := by
  have h0 : ¬ t.val % 16 = 0 := by omega
  have hpos : t.val - 1 < cfg0.N := Nat.lt_of_le_of_lt (Nat.sub_le _ _) t.isLt
  obtain ⟨ihV, ihA⟩ := scratch_inv m c (t.val - 1) ⟨t.val - 1, hpos⟩ rfl
  rw [outsAt0_C m c t h0 h1]
  dsimp only
  refine ⟨fun k d => ?_, fun k => ?_⟩
  · rw [Pieces.out0_C_3_eq, pay1_apply]
    exact next_V (featOf m c) (weightOf m c) (biasAt m c) t.val (iblk m c 0 t) (iblk m c 1 t) (iblk m c 2 t)
      (hx_at m c t) (hw_at m c t) (hb_at m c t) h0 _ ihV k d
  · rw [Pieces.out0_C_4_eq, pay2_apply]
    exact next_A (featOf m c) (weightOf m c) (biasAt m c) t.val (iblk m c 0 t) (iblk m c 1 t) (iblk m c 2 t)
      (hx_at m c t) (hw_at m c t) (hb_at m c t) h0 _ ihA k

end Cert.KernelIdeal.Acc

end
-- ==== Proof.Totals.lean ====
/-
  The two output arrays after the region. Output window 3 is [2, 64, 256] in slabs [1, 64, 256], slab ci written back
  once, at core ci's last point 16·ci + 15, with what the staging buffer holds there: the core's total of the first sum.
  Output window 4 is [2, 64, 1] likewise with the second sum. The two slabs cover each array, so each array ends at
  one function of its index.
-/
import proofs.«120541_j82549271429466_2_alg».proof.Proof.Accumulate
import Idealize.ShloMosaic.Lib.Pipeline.Value

noncomputable section

namespace Cert.KernelIdeal.Totals

open Cert.KernelIdeal Cert.KernelIdeal.Gen Cert.KernelIdeal.Acc Cert.NetVlad
open Idealize.ShloMosaic Idealize.ShloMosaic.TcCoe Idealize.ShloMosaic.ValueIdx Idealize.SL.Sem

variable (m : (ℓ : Loc nD τ sig) → Buf (Elt Ideal) ℓ)

/-- The first output array's final contents: slab ci holds core ci's total of the first sum. -/
def G3 (c : Dev nD) : S2x64x256.Idx → EReal :=
  fun i => accV (featOf m c) (weightOf m c) (biasAt m c) (16 * (i 0).val + 15) (i 1) (i 2)

/-- The second output array's final contents: slab ci holds core ci's total of the second sum. -/
def G4 (c : Dev nD) : S2x64x1.Idx → EReal :=
  fun i => accA (featOf m c) (weightOf m c) (biasAt m c) (16 * (i 0).val + 15) (i 1)

/-- The output windows' block indices over the grid: the slab is the point's core, the other axes are whole. -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- At a core's last point the first output's staging buffer is that core's slab of `G3`. -/
theorem slab3 (c : Dev nD) (t : Fin cfg0.N) (h1 : t.val % 16 = 15) (y : S1x64x256.Idx) :
    (outsAt0 m c t.val t.isLt).1 y = G3 m c (((cfg0.win 3).blk t).view.emb y) := by
  have hy0 : (y 0).val < 1 := (y 0).isLt
  have hy : y = ix3 0 (y 1) (y 2) :=
    (eq_ix3 y).trans (congrArg (fun a => ix3 a (y 1) (y 2)) (Fin.ext (by show (y 0).val = 0; omega)))
  have hn : 16 * (t.val / 16) + 15 = t.val := by omega
  rw [Blocks.blk3_emb t y]
  refine (congrArg (outsAt0 m c t.val t.isLt).1 hy).trans ?_
  show _ = accV (featOf m c) (weightOf m c) (biasAt m c) (16 * (t.val / 16) + 15) (y 1) (y 2)
  rw [hn]
  exact (out_last m c t h1).1 (y 1) (y 2)

/-- What a core's last point writes back into the first output array is that slab of `G3`. -/
theorem flushed3_eq (c : Dev nD) (t : Fin cfg0.N) (hf : (cfg0.win 3).flush t = true) :
    (dats m 0 c).flushed 3 t = ((cfg0.win 3).blk t).view.read (Elt Ideal) (G3 m c) := by
  have h1 : t.val % 16 = 15 := (flush0_3 t).mp hf
  show (cfg0.win 3).cut (grid0.coords t) ((dats m 0 c).after 3 t) = _
  rw [after0_3]
  funext y
  exact slab3 m c t h1 y

theorem slab4 (c : Dev nD) (t : Fin cfg0.N) (h1 : t.val % 16 = 15) (y : S1x64x1.Idx) :
    (outsAt0 m c t.val t.isLt).2.1 y = G4 m c (((cfg0.win 4).blk t).view.emb y) := by
  have hy0 : (y 0).val < 1 := (y 0).isLt
  have hy2 : (y 2).val < 1 := (y 2).isLt
  have hy : y = ix3 0 (y 1) 0 :=
    (eq_ix3 y).trans (by
      rw [show y 0 = (0 : Fin 1) from Fin.ext (by show (y 0).val = 0; omega),
        show y 2 = (0 : Fin 1) from Fin.ext (by show (y 2).val = 0; omega)]
      rfl)
  have hn : 16 * (t.val / 16) + 15 = t.val := by omega
  rw [Blocks.blk4_emb t y]
  refine (congrArg (outsAt0 m c t.val t.isLt).2.1 hy).trans ?_
  show _ = accA (featOf m c) (weightOf m c) (biasAt m c) (16 * (t.val / 16) + 15) (y 1)
  rw [hn]
  exact (out_last m c t h1).2 (y 1)

theorem flushed4_eq (c : Dev nD) (t : Fin cfg0.N) (hf : (cfg0.win 4).flush t = true) :
    (dats m 0 c).flushed 4 t = ((cfg0.win 4).blk t).view.read (Elt Ideal) (G4 m c) := by
  have h1 : t.val % 16 = 15 := (flush0_4 t).mp hf
  show (cfg0.win 4).cut (grid0.coords t) ((dats m 0 c).after 4 t) = _
  rw [after0_4]
  funext y
  exact slab4 m c t h1 y

/-- An index of the first output array is in point t's slab iff each coordinate is in the slab's range. -/
theorem mem_blk3 (t : Fin cfg0.N) (i : S2x64x256.Idx) :
    i ∈ ((cfg0.win 3).blk t).view.set ↔ ∀ a : Fin 3, win0_3.index t a * S1x64x256.size a ≤ (i a).val
      ∧ (i a).val < win0_3.index t a * S1x64x256.size a + S1x64x256.size a := by
  show i ∈ ((View.whole main_v2_0).slice (win0_3.rect t)).set ↔ _
  rw [View.set_slice_whole, Rect.mem_set_unit]
  exact Iff.rfl

theorem mem_blk4 (t : Fin cfg0.N) (i : S2x64x1.Idx) :
    i ∈ ((cfg0.win 4).blk t).view.set ↔ ∀ a : Fin 3, win0_4.index t a * S1x64x1.size a ≤ (i a).val
      ∧ (i a).val < win0_4.index t a * S1x64x1.size a + S1x64x1.size a := by
  show i ∈ ((View.whole main_v2_1).slice (win0_4.rect t)).set ↔ _
  rw [View.set_slice_whole, Rect.mem_set_unit]
  exact Iff.rfl

/-- Every index of the first output array is in the slab some core's last point writes back. -/
theorem cover3 (i : S2x64x256.Idx) :
    ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 256 := (i 2).isLt
  have hN : 16 * (i 0).val + 15 < cfg0.N := lt_of_lt_of_eq (by omega : 16 * (i 0).val + 15 < 32) N_0.symm
  refine ⟨⟨16 * (i 0).val + 15, hN⟩, (flush0_3 _).mpr (by show (16 * (i 0).val + 15) % 16 = 15; omega), ?_⟩
  obtain ⟨e0, e1, e2⟩ := idx3 ⟨16 * (i 0).val + 15, hN⟩
  have e0' : win0_3.index ⟨16 * (i 0).val + 15, hN⟩ (0 : Fin 3) = (i 0).val := by
    rw [e0]; show (16 * (i 0).val + 15) / 16 = (i 0).val; omega
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 64 ≤ (i 1).val ∧ (i 1).val < win0_3.index _ (1 : Fin 3) * 64 + 64; omega
  | ⟨2, _⟩ => show win0_3.index _ (2 : Fin 3) * 256 ≤ (i 2).val ∧ (i 2).val < win0_3.index _ (2 : Fin 3) * 256 + 256; omega

theorem cover4 (i : S2x64x1.Idx) :
    ∃ t : Fin cfg0.N, (cfg0.win 4).flush t = true ∧ i ∈ ((cfg0.win 4).blk t).view.set := by
  have h0 : (i 0).val < 2 := (i 0).isLt
  have h1 : (i 1).val < 64 := (i 1).isLt
  have h2 : (i 2).val < 1 := (i 2).isLt
  have hN : 16 * (i 0).val + 15 < cfg0.N := lt_of_lt_of_eq (by omega : 16 * (i 0).val + 15 < 32) N_0.symm
  refine ⟨⟨16 * (i 0).val + 15, hN⟩, (flush0_4 _).mpr (by show (16 * (i 0).val + 15) % 16 = 15; omega), ?_⟩
  obtain ⟨e0, e1, e2⟩ := idx4 ⟨16 * (i 0).val + 15, hN⟩
  have e0' : win0_4.index ⟨16 * (i 0).val + 15, hN⟩ (0 : Fin 3) = (i 0).val := by
    rw [e0]; show (16 * (i 0).val + 15) / 16 = (i 0).val; omega
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 64 ≤ (i 1).val ∧ (i 1).val < win0_4.index _ (1 : Fin 3) * 64 + 64; omega
  | ⟨2, _⟩ => show win0_4.index _ (2 : Fin 3) * 1 ≤ (i 2).val ∧ (i 2).val < win0_4.index _ (2 : Fin 3) * 1 + 1; omega

/-- The first output array after the region. -/
theorem final3 (c : Dev nD) : (dats m 0 c).arrAt 3 cfg0.N = G3 m c :=
  (dats m 0 c).arrAt_eq_of_cover 3 (G3 m c) (fun t hf => flushed3_eq m c t hf) (cover3)

/-- The second output array after the region. -/
theorem final4 (c : Dev nD) : (dats m 0 c).arrAt 4 cfg0.N = G4 m c :=
  (dats m 0 c).arrAt_eq_of_cover 4 (G4 m c) (fun t hf => flushed4_eq m c t hf) (cover4)

end Cert.KernelIdeal.Totals

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.KernelTail.lean ====
/-
  The host operations after the region: the two cores' partial results are added, the centres' term subtracted, and
  the result normalised twice.
-/
import proofs.«120541_j82549271429466_2_alg».proof.Proof.Gen.KernelIdeal.Frame
import Idealize.ShloMosaic.Lib.ValueIdx
import Idealize.ShloMosaic.Lib.Pipeline.Value
import Idealize.ShloMosaic.PureOps.Ideal.Laws
import proofs.«120541_j82549271429466_2_alg».proof.Proof.LibBcastInDim

noncomputable section

namespace Cert.KernelIdeal.Tail

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The first normalisation: every entry divided by the larger of its column's Euclidean norm and the floor. -/
def colNormalise (V : (⟨S64x256, .f32⟩ : BufTy).Contents (Elt Ideal)) : (⟨S64x256, .f32⟩ : BufTy).Contents (Elt Ideal) :=
  Host.divf V (broadcastInDim S64x256 ![0, 1] bcast_S1x256_S64x256_0_1
    (maximumf (Host.sqrt (broadcastInDim S1x256 ![1] bcast_S256_S1x256_1
        (Host.reduceAdd (mulf V V) (constant (F := Ideal) S_ .f32 0x00000000#32) reducesTo_S64x256_S256_d0 h_S_)))
      (broadcastInDim S1x256 ![] bcast_S_S1x256 (constant (F := Ideal) S_ .f32 0x2B8CBCCC#32))))

/-- The second normalisation: every entry divided by the larger of its row's Euclidean norm and the floor. -/
def rowNormalise (V : (⟨S64x256, .f32⟩ : BufTy).Contents (Elt Ideal)) : (⟨S64x256, .f32⟩ : BufTy).Contents (Elt Ideal) :=
  Host.divf V (broadcastInDim S64x256 ![0, 1] bcast_S64x1_S64x256_0_1
    (maximumf (Host.sqrt (broadcastInDim S64x1 ![0] bcast_S64_S64x1_0
        (Host.reduceAdd (mulf V V) (constant (F := Ideal) S_ .f32 0x00000000#32) reducesTo_S64x256_S64_d1 h_S_)))
      (broadcastInDim S64x1 ![] bcast_S_S64x1 (constant (F := Ideal) S_ .f32 0x2B8CBCCC#32))))

/-- Both, columns first. -/
def normalise (V : (⟨S64x256, .f32⟩ : BufTy).Contents (Elt Ideal)) : (⟨S64x256, .f32⟩ : BufTy).Contents (Elt Ideal) := rowNormalise (colNormalise V)

/-- The residual the host forms from the two outputs of the region and the centres. -/
def residualK (A3 : (⟨S2x64x256, .f32⟩ : BufTy).Contents (Elt Ideal)) (A4 : (⟨S2x64x1, .f32⟩ : BufTy).Contents (Elt Ideal))
    (C : (⟨S64x256, .f32⟩ : BufTy).Contents (Elt Ideal)) : (⟨S64x256, .f32⟩ : BufTy).Contents (Elt Ideal) :=
  subf (Host.reduceAdd A3 (constant (F := Ideal) S_ .f32 0x00000000#32) reducesTo_S2x64x256_S64x256_d0 h_S_)
    (mulf C (broadcastInDim S64x256 ![0, 1] bcast_S64x1_S64x256_0_1
      (Host.reduceAdd A4 (constant (F := Ideal) S_ .f32 0x00000000#32) reducesTo_S2x64x1_S64x1_d0 h_S_)))

/-- At (k, d): the two cores' first outputs added, minus the centre's entry times the two cores' second outputs added. -/
theorem residualK_apply (A3 : (⟨S2x64x256, .f32⟩ : BufTy).Contents (Elt Ideal)) (A4 : (⟨S2x64x1, .f32⟩ : BufTy).Contents (Elt Ideal))
    (C : (⟨S64x256, .f32⟩ : BufTy).Contents (Elt Ideal)) (k : Fin 64) (d : Fin 256) :
    residualK A3 A4 C (ix2 k d)
      = (∑ ci : Fin 2, A3 (ix3 ci k d)) - C (ix2 k d) * (∑ ci : Fin 2, A4 (ix3 ci k 0)) := by
  -- the difference and the product at (k, d); the repeated column read at (k, 0)
  unfold residualK
  rw [subf_apply, mulf_apply]
  rw [Cert.BcastInDim.col_mat_apply]
  -- each host sum over the leading axis is its initial value plus the sum over that axis's two coordinates
  simp only [Host.reduceAdd, Ideal.hostReduceAdd_def]
  rw [Ideal.hostReduceAdd_single reducesTo_S2x64x256_S64x256_d0 (by decide),
    Ideal.hostReduceAdd_single reducesTo_S2x64x1_S64x1_d0 (by decide)]
  -- the initial value is the zero word
  rw [constant_apply, Ideal.ofBits_zero_f32, zero_add, zero_add]
  -- the index with coordinate ci inserted in front of (k, d), resp. (k, 0)
  have e3 : ∀ ci : Fin 2, A3 (Shape.Reduces.lift (s := S2x64x256) (t := S64x256) (a := 0) (by decide) (ix2 k d) ci) = A3 (ix3 ci k d) := fun ci =>
    congrArg A3 (funext fun a => Fin.ext (by match a with | ⟨0, _⟩ => rfl | ⟨1, _⟩ => rfl | ⟨2, _⟩ => rfl))
  have e4 : ∀ ci : Fin 2, A4 (Shape.Reduces.lift (s := S2x64x1) (t := S64x1) (a := 0) (by decide) (ix2 k (0 : Fin 1)) ci) = A4 (ix3 ci k 0) := fun ci =>
    congrArg A4 (funext fun a => Fin.ext (by match a with | ⟨0, _⟩ => rfl | ⟨1, _⟩ => rfl | ⟨2, _⟩ => rfl))
  exact congrArg₂ (· - C (ix2 k d) * ·) (Finset.sum_congr rfl fun ci _ => e3 ci) (Finset.sum_congr rfl fun ci _ => e4 ci)

/-- What the result buffer holds after the host tail, from the two output arrays as the region leaves them. -/
theorem result_eq (c : Dev nD) :
    Pipeline.afterTail₀ cfgs (dats m) 0 (V0 m) [hostOps1] c main_v23
      = normalise (residualK ((dats m 0 c).arrAt 3 cfg0.N) ((dats m 0 c).arrAt 4 cfg0.N)
          (m ((c : Thread nD τ).loc main_arg1))) := by
  unfold Pipeline.afterTail₀
  show StableHlo.after hostOps1 _ (Proc.devRef .tc main_v23) = _
  -- what the region leaves: the two output arrays at their references, the centres untouched since launch
  have h3 : Pipeline.withArrays (cfgs 0).spec c (V0 m c) (fun w => (dats m 0 c).arrAt w (cfgs 0).N) (Proc.devRef .tc main_v2_0)
      = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N) (Proc.devRef .tc main_v2_1)
      = (dats m 0 c).arrAt 4 cfg0.N :=
    Pipeline.withArrays_arr spec0 launch0.win.arr_inj c _ _ 4
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  -- each operation's result at its own buffer is its function of its operands' contents; the composed term is the nested one
  after_results_simp
  rw [h3, h4, h1]
  rfl

end Cert.KernelIdeal.Tail

end
-- ==== Proof.RefStages.lean ====
/-
  The reference's host program read one operation at a time. Its result is the two normalisations applied to the
  aggregated residual, and the residual at (k, d) is the specification's: the soft assignments of all 262144
  descriptors against the features' row d, minus the centre's entry times the sum of the soft assignments.
-/
import proofs.«120541_j82549271429466_2_alg».proof.Proof.Gen.ReferenceIdeal.Run
import proofs.«120541_j82549271429466_2_alg».proof.Proof.Gen.ReferenceIdeal.Read
import proofs.«120541_j82549271429466_2_alg».proof.Proof.Spec
import proofs.«120541_j82549271429466_2_alg».proof.Proof.LibMinReduce

noncomputable section

namespace Cert.ReferenceIdeal.RefValue

open Cert.ReferenceIdeal Cert.ReferenceIdeal.Gen Cert.ReferenceIdeal.Read Cert.NetVlad
open Idealize.ShloMosaic Idealize.ShloMosaic.ValueIdx

/-- The first normalisation: every entry divided by the larger of its column's Euclidean norm and the floor. -/
def colNormalise (V : (⟨S64x256, .f32⟩ : BufTy).Contents (Elt Ideal)) : (⟨S64x256, .f32⟩ : BufTy).Contents (Elt Ideal) :=
  Host.divf V (broadcastInDim S64x256 ![0, 1] bcast_S1x256_S64x256_0_1
    (maximumf (Host.sqrt (broadcastInDim S1x256 ![1] bcast_S256_S1x256_1
        (Host.reduceAdd (mulf V V) (constant (F := Ideal) S_ .f32 0x00000000#32) reducesTo_S64x256_S256_d0 h_S_)))
      (broadcastInDim S1x256 ![] bcast_S_S1x256 (constant (F := Ideal) S_ .f32 0x2B8CBCCC#32))))

/-- The second normalisation: every entry divided by the larger of its row's Euclidean norm and the floor. -/
def rowNormalise (V : (⟨S64x256, .f32⟩ : BufTy).Contents (Elt Ideal)) : (⟨S64x256, .f32⟩ : BufTy).Contents (Elt Ideal) :=
  Host.divf V (broadcastInDim S64x256 ![0, 1] bcast_S64x1_S64x256_0_1
    (maximumf (Host.sqrt (broadcastInDim S64x1 ![0] bcast_S64_S64x1_0
        (Host.reduceAdd (mulf V V) (constant (F := Ideal) S_ .f32 0x00000000#32) reducesTo_S64x256_S64_d1 h_S_)))
      (broadcastInDim S64x1 ![] bcast_S_S64x1 (constant (F := Ideal) S_ .f32 0x2B8CBCCC#32))))

/-- Both, columns first. -/
def normalise (V : (⟨S64x256, .f32⟩ : BufTy).Contents (Elt Ideal)) : (⟨S64x256, .f32⟩ : BufTy).Contents (Elt Ideal) := rowNormalise (colNormalise V)

/-- The reference's result is the normalisations of its residual stage. -/
theorem result_eq_normalise (x0 : (⟨S1x256x512x512, .f32⟩ : BufTy).Contents (Elt Ideal)) (x1 x2 : (⟨S64x256, .f32⟩ : BufTy).Contents (Elt Ideal))
    (x3 : (⟨S64, .f32⟩ : BufTy).Contents (Elt Ideal)) :
    val_main_v31 (F := Ideal) x0 x1 x2 x3 = normalise (val_main_v21 (F := Ideal) x0 x1 x2 x3) := rfl

/-! ### The index maps of the stages, at coordinates -/

private theorem lidx1_eq (k : Fin 64) (n : Fin 262144) (d : Fin 256) : lidx_main_v1 (ix2 k n) d = ix2 k d :=
  funext fun a => Fin.ext (by match a with | ⟨0, _⟩ => rfl | ⟨1, _⟩ => rfl)

private theorem ridx1_eq (k : Fin 64) (n : Fin 262144) (d : Fin 256) : ridx_main_v1 (ix2 k n) d = ix2 d n :=
  funext fun a => Fin.ext (by match a with | ⟨0, _⟩ => rfl | ⟨1, _⟩ => rfl)

private theorem idx23_eq (k : Fin 64) (n : Fin 262144) : idx_main_v2 (idx_main_v3 (ix2 k n)) = ix1 k :=
  funext fun a => Fin.ext (by match a with | ⟨0, _⟩ => rfl)

private theorem idx89_eq (k : Fin 64) (n : Fin 262144) : idx_main_v8 (idx_main_v9 (ix2 k n)) = ix1 n :=
  funext fun a => Fin.ext (by match a with | ⟨0, _⟩ => rfl)

private theorem idx12_eq (n : Fin 262144) (k : Fin 64) : idx_main_v12 (ix1 n) k = ix2 k n :=
  funext fun a => Fin.ext (by match a with | ⟨0, _⟩ => rfl | ⟨1, _⟩ => rfl)

private theorem idx1314_eq (k : Fin 64) (n : Fin 262144) : idx_main_v13 (idx_main_v14 (ix2 k n)) = ix1 n :=
  funext fun a => Fin.ext (by match a with | ⟨0, _⟩ => rfl)

private theorem lidx16_eq (k : Fin 64) (d : Fin 256) (n : Fin 262144) : lidx_main_v16 (ix2 k d) n = ix2 k n :=
  funext fun a => Fin.ext (by match a with | ⟨0, _⟩ => rfl | ⟨1, _⟩ => rfl)

private theorem ridx16_eq (k : Fin 64) (d : Fin 256) (n : Fin 262144) : ridx_main_v16 (ix2 k d) n = ix2 d n :=
  funext fun a => Fin.ext (by match a with | ⟨0, _⟩ => rfl | ⟨1, _⟩ => rfl)

private theorem idx17_eq (k : Fin 64) (n : Fin 262144) : idx_main_v17 (ix1 k) n = ix2 k n :=
  funext fun a => Fin.ext (by match a with | ⟨0, _⟩ => rfl | ⟨1, _⟩ => rfl)

private theorem idx1819_eq (k : Fin 64) (d : Fin 256) : idx_main_v18 (idx_main_v19 (ix2 k d)) = ix1 k :=
  funext fun a => Fin.ext (by match a with | ⟨0, _⟩ => rfl)

/-! ### The stages of the soft assignment -/

/-- The logits: weights times features plus the bias spread along the descriptors. -/
private theorem logit_apply (x0 : (⟨S1x256x512x512, .f32⟩ : BufTy).Contents (Elt Ideal)) (x2 : (⟨S64x256, .f32⟩ : BufTy).Contents (Elt Ideal)) (x3 : (⟨S64, .f32⟩ : BufTy).Contents (Elt Ideal)) (k : Fin 64) (n : Fin 262144) :
    val_main_v4 (F := Ideal) x0 x2 x3 (ix2 k n) = logit x2 (fun k' => x3 (ix1 k')) (fun d' => val_main_v0 (F := Ideal) x0 (ix2 d' n)) k := by
  rw [val_main_v4_apply, val_main_v1_apply, val_main_v3_apply, val_main_v2_apply, idx23_eq]
  simp only [lidx1_eq, ridx1_eq, Ideal.addf_def]
  rfl

/-- A maximum reduction along the rows of a matrix (one value per column), read at column c: the fold of max from the
    initial value over the column's entries. -/
private theorem colFold_apply {a b : ℕ} (x : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (c : Fin b) :
    Host.reduce FloatOps.maximumf x init h' hu (ix1 c)
      = (Finset.univ : Finset (Fin a)).fold max (init (Shape.Idx.first hu)) (fun p => x (ix2 p c)) := by
  rw [Host.reduce_eq_fold_single FloatOps.maximumf x init h' h hu]
  exact congrArg (fun f => Finset.fold max (init (Shape.Idx.first hu)) f (Finset.univ : Finset (Fin a)))
    (funext fun p => congrArg x (Cert.MinReduce.lift_rows h c p))

/-- The column maximum; taking the larger of it and the fold's own initial value changes nothing. -/
private theorem colmax_apply (x0 : (⟨S1x256x512x512, .f32⟩ : BufTy).Contents (Elt Ideal)) (x2 : (⟨S64x256, .f32⟩ : BufTy).Contents (Elt Ideal)) (x3 : (⟨S64, .f32⟩ : BufTy).Contents (Elt Ideal)) (n : Fin 262144) :
    val_main_v7 (F := Ideal) x0 x2 x3 (ix1 n) = colMax x2 (fun k' => x3 (ix1 k')) (fun d' => val_main_v0 (F := Ideal) x0 (ix2 d' n)) := by
  have h5 : val_main_v5 (F := Ideal) x0 x2 x3 (ix1 n) = colMax x2 (fun k' => x3 (ix1 k')) (fun d' => val_main_v0 (F := Ideal) x0 (ix2 d' n)) := by
    unfold val_main_v5 colMax
    refine (colFold_apply _ _ reducesTo_S64x262144_S262144_d0 (by decide) h_S_ n).trans ?_
    exact congrArg (fun f => Finset.fold max (Ideal.ofBits .f32 0xFF800000#32) f (Finset.univ : Finset (Fin 64)))
      (funext fun p => logit_apply x0 x2 x3 p n)
  rw [val_main_v7_apply, h5, val_main_v6_apply, val_main_cst_0_apply, Ideal.maximumf_def, Ideal.ofBits_def]
  exact max_eq_right ((Finset.le_fold_max _).mpr (Or.inl le_rfl))

/-- The exponentials of the logits less the column maximum. -/
private theorem exp_apply (x0 : (⟨S1x256x512x512, .f32⟩ : BufTy).Contents (Elt Ideal)) (x2 : (⟨S64x256, .f32⟩ : BufTy).Contents (Elt Ideal)) (x3 : (⟨S64, .f32⟩ : BufTy).Contents (Elt Ideal)) (k : Fin 64) (n : Fin 262144) :
    val_main_v11 (F := Ideal) x0 x2 x3 (ix2 k n) = Ideal.exp (logit x2 (fun k' => x3 (ix1 k')) (fun d' => val_main_v0 (F := Ideal) x0 (ix2 d' n)) k - colMax x2 (fun k' => x3 (ix1 k')) (fun d' => val_main_v0 (F := Ideal) x0 (ix2 d' n))) := by
  rw [val_main_v11_apply, val_main_v10_apply, val_main_v9_apply, val_main_v8_apply, idx89_eq, colmax_apply, logit_apply,
    Ideal.hostUnary_exp_def, Ideal.subf_def]

/-- The soft assignment of descriptor n to cluster k. -/
private theorem soft_apply (x0 : (⟨S1x256x512x512, .f32⟩ : BufTy).Contents (Elt Ideal)) (x2 : (⟨S64x256, .f32⟩ : BufTy).Contents (Elt Ideal)) (x3 : (⟨S64, .f32⟩ : BufTy).Contents (Elt Ideal)) (k : Fin 64) (n : Fin 262144) :
    val_main_v15 (F := Ideal) x0 x2 x3 (ix2 k n) = soft x2 (fun k' => x3 (ix1 k')) (fun d' => val_main_v0 (F := Ideal) x0 (ix2 d' n)) k := by
  rw [val_main_v15_apply, val_main_v14_apply, val_main_v13_apply, idx1314_eq, val_main_v12_apply, val_main_cst_1_apply,
    exp_apply]
  simp only [idx12_eq, exp_apply]
  rw [Ideal.hostDivf_def, Ideal.ofBits_def, Ideal.ofBits_zero_f32, zero_add]
  rfl

/-- The reference's residual stage at (k, d) is the specification's residual of the reshaped input, the centres, the
    weights and the bias. -/
theorem residual_apply (x0 : (⟨S1x256x512x512, .f32⟩ : BufTy).Contents (Elt Ideal)) (x1 x2 : (⟨S64x256, .f32⟩ : BufTy).Contents (Elt Ideal))
    (x3 : (⟨S64, .f32⟩ : BufTy).Contents (Elt Ideal)) (k : Fin 64) (d : Fin 256) :
    val_main_v21 (F := Ideal) x0 x1 x2 x3 (ix2 k d)
      = core (val_main_v0 (F := Ideal) x0) x1 x2 (fun k' => x3 (ix1 k')) k d := by
  rw [val_main_v21_apply, val_main_v16_apply, val_main_v20_apply, val_main_v19_apply, val_main_v18_apply, idx1819_eq,
    val_main_v17_apply, val_main_cst_2_apply]
  simp only [lidx16_eq, ridx16_eq, idx17_eq, soft_apply]
  rw [Ideal.subf_def, Ideal.mulf_def, Ideal.ofBits_def, Ideal.ofBits_zero_f32, zero_add]
  rfl

end Cert.ReferenceIdeal.RefValue

end
-- ==== Proof.Bridge.lean ====
/-
  The two sides meet. The kernel program's result buffer ends at the two normalisations of the residual the host forms
  from the cores' totals; the reference's at the same normalisations of its residual. The residuals agree entry by
  entry: the sum over all 262144 descriptors is the sum of the two cores' totals, each core's total the sum of its
  sixteen blocks' shares. The features, weights, centres and bias on both sides are the same arguments.
-/
import proofs.«120541_j82549271429466_2_alg».proof.Proof.Totals
import proofs.«120541_j82549271429466_2_alg».proof.Proof.KernelTail
import proofs.«120541_j82549271429466_2_alg».proof.Proof.RefStages

noncomputable section

namespace Cert.Bridge

open Idealize.ShloMosaic Idealize.ShloMosaic.TcCoe Idealize.ShloMosaic.ValueIdx Idealize.SL.Sem Cert.NetVlad

/-- The two programs normalise by the same operations. -/
theorem normalise_eq (V : (⟨Cert.KernelIdeal.S64x256, .f32⟩ : BufTy).Contents (Elt Ideal)) :
    Cert.KernelIdeal.Tail.normalise V = Cert.ReferenceIdeal.RefValue.normalise V := rfl

section kernel

open Cert.KernelIdeal Cert.KernelIdeal.Gen

variable (m : (ℓ : Loc nD τ sig) → Buf (Elt Ideal) ℓ) (ρ : Dev nD → PrngReg)

/-- The kernel program's result: the residual of the cores' totals, normalised. -/
def resultK (c : Dev nD) : Buf (Elt Ideal) ((c.tc : Thread nD τ).loc main_v23) :=
  Tail.normalise (Tail.residualK (Totals.G3 m c) (Totals.G4 m c) (m ((c : Thread nD τ).loc main_arg1)))

/-- Every weakly fair execution of the kernel program ends with its result buffer at `resultK` and its arguments
    unchanged. -/
theorem kernel_run : θ_run (defs (F := Ideal)) (onTc (τ := τ) (main (F := Ideal))) ⟨m, fun _ => 0, ρ⟩ (fun r => ∀ c : Dev nD,
      r.2.mem ((c.tc : Thread nD τ).loc main_v23) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v23 (Pipeline.mem_restRefs_of main_v23 (by decide) (by decide))).trans
        ((Tail.result_eq m c).trans (by rw [Totals.final3 m c, Totals.final4 m c]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

/-- The residual the host forms from the cores' totals is the reference's residual stage of the same arguments. -/
theorem residual_eq (c : Dev nD) :
    Tail.residualK (Totals.G3 m c) (Totals.G4 m c) (m ((c : Thread nD τ).loc main_arg1))
      = Cert.ReferenceIdeal.Read.val_main_v21 (F := Ideal) (m ((c : Thread nD τ).loc main_arg0))
          (m ((c : Thread nD τ).loc main_arg1)) (m ((c : Thread nD τ).loc main_arg2)) (m ((c : Thread nD τ).loc main_arg3)) := by
  funext i
  obtain ⟨k, d, rfl⟩ : ∃ (k : Fin 64) (d : Fin 256), i = ix2 k d := ⟨i 0, i 1, eq_ix2 i⟩
  have eX : Acc.featOf m c = Cert.ReferenceIdeal.Read.val_main_v0 (F := Ideal) (m ((c : Thread nD τ).loc main_arg0)) :=
    Blocks.V_main_v0_eq m c
  have eW : Acc.weightOf m c = m ((c : Thread nD τ).loc main_arg2) := V_main_arg2 m c
  have eB : Acc.biasAt m c = fun k' => m ((c : Thread nD τ).loc main_arg3) (ix1 k') :=
    funext fun k' => Blocks.V_main_v1_apply m c k'
  rw [Tail.residualK_apply, Cert.ReferenceIdeal.RefValue.residual_apply, core_eq_cores]
  show (∑ ci : Fin 2, accV (Acc.featOf m c) (Acc.weightOf m c) (Acc.biasAt m c) (16 * ci.val + 15) k d)
      - _
        * (∑ ci : Fin 2, accA (Acc.featOf m c) (Acc.weightOf m c) (Acc.biasAt m c) (16 * ci.val + 15) k) = _
  rw [eX, eW, eB]

/-- The kernel program's result is the reference's result stage of the same arguments. -/
theorem result_eq (c : Dev nD) :
    resultK m c = Cert.ReferenceIdeal.Read.val_main_v31 (F := Ideal) (m ((c : Thread nD τ).loc main_arg0))
          (m ((c : Thread nD τ).loc main_arg1)) (m ((c : Thread nD τ).loc main_arg2)) (m ((c : Thread nD τ).loc main_arg3)) := by
  unfold resultK
  rw [residual_eq m c, normalise_eq, Cert.ReferenceIdeal.RefValue.result_eq_normalise]

end kernel

end Cert.Bridge

end
-- ==== Proof.lean ====
/-
  The kernel computes a NetVLAD-style aggregation: soft assignments of 262144 descriptors to 64 clusters (a softmax of
  an affine map over the clusters), the assignment-weighted sums of the descriptors minus the centres' term, and two
  Euclidean normalisations. It streams the descriptors in 32 blocks of 8192 over a grid of two cores by sixteen
  blocks, accumulating per core, and the host adds the two cores' totals; the reference takes every sum in one piece.

  At the ideal values (extended reals, exact operations) the two results are equal: per descriptor both sides form the
  same logits, maximum, exponentials and quotient; a sum over all descriptors is the sum of the cores' totals, a
  core's total the sum of its blocks' shares (addition of extended reals is commutative and associative, so no
  finiteness is needed); and the normalisations are the same operations of equal residuals.

  The three frames are the generated frame proofs (the reference's its generated run with the result dropped); the
  idealization rewrote nothing, so the preservation claim has no conjunct.
-/
import proofs.«120541_j82549271429466_2_alg».proof.Defs
import proofs.«120541_j82549271429466_2_alg».proof.Proof.Gen.Kernel
import proofs.«120541_j82549271429466_2_alg».proof.Proof.Gen.Kernel.Skeleton
import proofs.«120541_j82549271429466_2_alg».proof.Proof.Gen.Kernel.Launch
import proofs.«120541_j82549271429466_2_alg».proof.Proof.Gen.Kernel.Points
import proofs.«120541_j82549271429466_2_alg».proof.Proof.Gen.Kernel.Frame
import proofs.«120541_j82549271429466_2_alg».proof.Proof.Gen.KernelIdeal
import proofs.«120541_j82549271429466_2_alg».proof.Proof.Gen.KernelIdeal.Skeleton
import proofs.«120541_j82549271429466_2_alg».proof.Proof.Gen.KernelIdeal.Launch
import proofs.«120541_j82549271429466_2_alg».proof.Proof.Gen.KernelIdeal.Points
import proofs.«120541_j82549271429466_2_alg».proof.Proof.Gen.KernelIdeal.Frame
import proofs.«120541_j82549271429466_2_alg».proof.Proof.Gen.ReferenceIdeal
import proofs.«120541_j82549271429466_2_alg».proof.Proof.Gen.ReferenceIdeal.Run
import proofs.«120541_j82549271429466_2_alg».proof.Proof.Gen.ReferenceIdeal.Read
import proofs.«120541_j82549271429466_2_alg».proof.Proof.Gen.Pre_finite_inputs
import proofs.«120541_j82549271429466_2_alg».proof.Proof.Bridge
import Idealize.ShloMosaic.Adequacy
import Idealize.ShloMosaic.Init

noncomputable section

namespace Cert.Proof

open Idealize.ShloMosaic Idealize.SL.Sem

/-- The word-level kernel program runs, faults nowhere and leaves its arguments unchanged. -/
theorem frame_kernel : Cert.frame_Kernel := fun m ρ _ => Cert.Kernel.Gen.frame m ρ

/-- The same for the kernel program read at the ideal values. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the reference's result is the kernel program's:
    the normalised residual of the same features, centres, weights and bias. -/
theorem algebraic : Cert.algebraic_KernelIdeal_ReferenceIdeal := by
  intro m ρ m' ρ' _ hagree
  refine ⟨fun c => Cert.Bridge.resultK m c, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
